-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x3x12x64 : Shape := ⟨5, ![2, 2048, 3, 12, 64]⟩
abbrev S_ : Shape := ⟨0, ![]⟩

class Facts : Prop where
  bcast_S_S2x2048x3x12x64 : S_.BroadcastsInDim S2x2048x3x12x64 (![] : Fin 0 → Fin S2x2048x3x12x64.rank)
  reducesTo_S2x2048x3x12x64_S_d0_1_2_3_4 : S2x2048x3x12x64.ReducesTo [0, 1, 2, 3, 4] S_
  h_S_ : 0 < S_.numel

variable [Facts]

def fn {F : FTy → Type} [FloatOps F] (main_arg0 : FVec F S2x2048x3x12x64 .f32) : IVec S_ 1 :=
  let main_v0 : FVec F S2x2048x3x12x64 .f32 := Host.absf main_arg0
  let main_cst : FVec F S_ .f32 := constant S_ .f32 0x7F800000#32
  let main_v1 : FVec F S2x2048x3x12x64 .f32 := broadcastInDim S2x2048x3x12x64 ![] bcast_S_S2x2048x3x12x64 main_cst
  let main_v2 : IVec S2x2048x3x12x64 1 := cmpf .olt main_v0 main_v1
  let main_c : IVec S_ 1 := constantI S_ 1 1#1
  let main_v3 : IVec S_ 1 := (fun x v => Host.reduce IntOp.andi x v reducesTo_S2x2048x3x12x64_S_d0_1_2_3_4 h_S_) main_v2 main_c
  main_v3
-- ==== Kernel.lean ====
abbrev S2x2048x3x12x64 : Shape := ⟨5, ![2, 2048, 3, 12, 64]⟩
abbrev S2x2048x2304 : Shape := ⟨3, ![2, 2048, 2304]⟩
abbrev S2x2048x768 : Shape := ⟨3, ![2, 2048, 768]⟩
abbrev S1x256x768 : Shape := ⟨3, ![1, 256, 768]⟩
abbrev S256x768 : Shape := ⟨2, ![256, 768]⟩
abbrev S1x256x64 : Shape := ⟨3, ![1, 256, 64]⟩
abbrev S256x64 : Shape := ⟨2, ![256, 64]⟩
abbrev S768x64 : Shape := ⟨2, ![768, 64]⟩
abbrev S256 : Shape := ⟨1, ![256]⟩
abbrev S256x1 : Shape := ⟨2, ![256, 1]⟩
abbrev S2x2048x12x64 : Shape := ⟨4, ![2, 2048, 12, 64]⟩

abbrev nBuf : Space → Nat
  | .hbm => 4
  | .vmem => 16
  | .smem => 0
  | _ => 0

abbrev bufTy : (tb : Table) → Fin (tcTables nBuf tb) → BufTy
  | .hbm, ⟨0, _⟩ => ⟨S2x2048x3x12x64, .f32⟩
  | .hbm, ⟨1, _⟩ => ⟨S2x2048x2304, .f32⟩
  | .hbm, ⟨2, _⟩ => ⟨S2x2048x768, .f32⟩
  | .hbm, ⟨3, _⟩ => ⟨S2x2048x12x64, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S2x2048x3x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let c0_i32_0 : BitVec 32 := 0#32
  ![arg0.toNat, v1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_0 : BitVec 32 := 2#32
  let c0_i32_1 : BitVec 32 := 0#32
  ![arg0.toNat, v1.toNat, c2_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S2x2048x3x12x64_S2x2048x2304 : S2x2048x3x12x64.ShapeCasts S2x2048x2304
  iota_S256x768_d0_w32 : S256x768.Iotas .tc 32 [0]
  iota_S256x768_d1_w32 : S256x768.Iotas .tc 32 [1]
  inb_S1x256x768_S1x256x64_0_0_0 : ∀ a, (![0, 0, 0] : Fin 3 → Nat) a + S1x256x64.size a ≤ S1x256x768.size a
  h_S1x256x64 : 0 < S1x256x64.numel
  shapeCasts_S1x256x64_S256x64 : S1x256x64.ShapeCasts S256x64
  concatenates_S256x64_S256x64_S256x64_S768x64_d0 : Shape.Concatenates [S256x64, S256x64, S256x64] S768x64 0
  reduces_S256x768_S256 : S256x768.Reduces [1] S256
  shapeCasts_S256_S256x1 : S256.ShapeCasts S256x1
  broadcasts_S256x1_S256x768 : S256x1.Broadcasts S256x768
  broadcasts_S256x1_S256x64 : S256x1.Broadcasts S256x64
  shapeCasts_S256x64_S1x256x64 : S256x64.ShapeCasts S1x256x64
  inb_S1x256x768_S1x256x64_0_0_64 : ∀ a, (![0, 0, 64] : Fin 3 → Nat) a + S1x256x64.size a ≤ S1x256x768.size a
  inb_S1x256x768_S1x256x64_0_0_128 : ∀ a, (![0, 0, 128] : Fin 3 → Nat) a + S1x256x64.size a ≤ S1x256x768.size a
  inb_S1x256x768_S1x256x64_0_0_192 : ∀ a, (![0, 0, 192] : Fin 3 → Nat) a + S1x256x64.size a ≤ S1x256x768.size a
  inb_S1x256x768_S1x256x64_0_0_256 : ∀ a, (![0, 0, 256] : Fin 3 → Nat) a + S1x256x64.size a ≤ S1x256x768.size a
  inb_S1x256x768_S1x256x64_0_0_320 : ∀ a, (![0, 0, 320] : Fin 3 → Nat) a + S1x256x64.size a ≤ S1x256x768.size a
  inb_S1x256x768_S1x256x64_0_0_384 : ∀ a, (![0, 0, 384] : Fin 3 → Nat) a + S1x256x64.size a ≤ S1x256x768.size a
  inb_S1x256x768_S1x256x64_0_0_448 : ∀ a, (![0, 0, 448] : Fin 3 → Nat) a + S1x256x64.size a ≤ S1x256x768.size a
  inb_S1x256x768_S1x256x64_0_0_512 : ∀ a, (![0, 0, 512] : Fin 3 → Nat) a + S1x256x64.size a ≤ S1x256x768.size a
  inb_S1x256x768_S1x256x64_0_0_576 : ∀ a, (![0, 0, 576] : Fin 3 → Nat) a + S1x256x64.size a ≤ S1x256x768.size a
  inb_S1x256x768_S1x256x64_0_0_640 : ∀ a, (![0, 0, 640] : Fin 3 → Nat) a + S1x256x64.size a ≤ S1x256x768.size a
  inb_S1x256x768_S1x256x64_0_0_704 : ∀ a, (![0, 0, 704] : Fin 3 → Nat) a + S1x256x64.size a ≤ S1x256x768.size a
  shapeCasts_S2x2048x768_S2x2048x12x64 : S2x2048x768.ShapeCasts S2x2048x12x64
  dot_S256x64_S768x64_S256x768_1_1_0_0_n_n_wf : DotDims.WF S256x64 S768x64 S256x768 [1] [1] [0] [0] [] []
  dot_S256x768_S768x64_S256x64_1_0_0_1_n_n_wf : DotDims.WF S256x768 S768x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S2x2048x2304.size a
  hwx0_0 : ∀ i : grid0.Coords, EltTy.bits .f32 = 32 ∨ (Rect.block (s := S2x2048x2304) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S2x2048x2304.size a
  hwx0_1 : ∀ i : grid0.Coords, EltTy.bits .f32 = 32 ∨ (Rect.block (s := S2x2048x2304) S1x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x768.size a ≤ S2x2048x2304.size a
  hwx0_2 : ∀ i : grid0.Coords, EltTy.bits .f32 = 32 ∨ (Rect.block (s := S2x2048x2304) S1x256x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x768.size a ≤ S2x2048x2304.size a
  hwx0_3 : ∀ i : grid0.Coords, EltTy.bits .f32 = 32 ∨ (Rect.block (s := S2x2048x2304) S1x256x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x768.size a ≤ S2x2048x2304.size a
  hwx0_4 : ∀ i : grid0.Coords, EltTy.bits .f32 = 32 ∨ (Rect.block (s := S2x2048x2304) S1x256x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x768.size a ≤ S2x2048x2304.size a
  hwx0_5 : ∀ i : grid0.Coords, EltTy.bits .f32 = 32 ∨ (Rect.block (s := S2x2048x2304) S1x256x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x768.size a ≤ S2x2048x2304.size a
  hwx0_6 : ∀ i : grid0.Coords, EltTy.bits .f32 = 32 ∨ (Rect.block (s := S2x2048x2304) S1x256x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x768.size a ≤ S2x2048x768.size a
  hwx0_7 : ∀ i : grid0.Coords, EltTy.bits .f32 = 32 ∨ (Rect.block (s := S2x2048x768) S1x256x768.size (cc0_transform_7 i) (hinb0_7 i)).WholeWords (EltTy.packing .f32)

variable [Facts₀]

def dot_S256x64_S768x64_S256x768_1_1_0_0_n_n : DotDims S256x64 S768x64 S256x768 where
  lhsContracting := [1]
  rhsContracting := [1]
  lhsNonContracting := [0]
  rhsNonContracting := [0]
  lhsBatch := []
  rhsBatch := []
  wf := dot_S256x64_S768x64_S256x768_1_1_0_0_n_n_wf
def dot_S256x768_S768x64_S256x64_1_0_0_1_n_n : DotDims S256x768 S768x64 S256x64 where
  lhsContracting := [1]
  rhsContracting := [0]
  lhsNonContracting := [0]
  rhsNonContracting := [1]
  lhsBatch := []
  rhsBatch := []
  wf := dot_S256x768_S768x64_S256x64_1_0_0_1_n_n_wf

abbrev win0_0 : Pipeline.Window sig grid0 :=
  Pipeline.Window.ofSpec (Memref.whole main_v0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256x768.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x2048x3x12x64 : Shape := ⟨5, ![2, 2048, 3, 12, 64]⟩
abbrev S2x2048x1x12x64 : Shape := ⟨5, ![2, 2048, 1, 12, 64]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x12x2048 : Shape := ⟨3, ![2, 12, 2048]⟩
abbrev S2x12x2048x1 : Shape := ⟨4, ![2, 12, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x3x12x64, .f32⟩
  | .hbm, ⟨1, _⟩ => ⟨S2x2048x1x12x64, .f32⟩
  | .hbm, ⟨2, _⟩ => ⟨S2x2048x12x64, .f32⟩
  | .hbm, ⟨3, _⟩ => ⟨S2x12x2048x64, .f32⟩
  | .hbm, ⟨4, _⟩ => ⟨S2x2048x1x12x64, .f32⟩
  | .hbm, ⟨5, _⟩ => ⟨S2x2048x12x64, .f32⟩
  | .hbm, ⟨6, _⟩ => ⟨S2x12x2048x64, .f32⟩
  | .hbm, ⟨7, _⟩ => ⟨S2x2048x1x12x64, .f32⟩
  | .hbm, ⟨8, _⟩ => ⟨S2x2048x12x64, .f32⟩
  | .hbm, ⟨9, _⟩ => ⟨S2x12x2048x64, .f32⟩
  | .hbm, ⟨10, _⟩ => ⟨S2x12x2048x2048, .f32⟩
  | .hbm, ⟨11, _⟩ => ⟨S_, .f32⟩
  | .hbm, ⟨12, _⟩ => ⟨S2x12x2048x2048, .f32⟩
  | .hbm, ⟨13, _⟩ => ⟨S2x12x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S2x12x2048x2048, .i1⟩
  | .hbm, ⟨32, _⟩ => ⟨S2x12x2048x2048, .f32⟩
  | .hbm, ⟨33, _⟩ => ⟨S2x12x2048x2048, .f32⟩
  | .hbm, ⟨34, _⟩ => ⟨S_, .f32⟩
  | .hbm, ⟨35, _⟩ => ⟨S2x12x2048, .f32⟩
  | .hbm, ⟨36, _⟩ => ⟨S_, .f32⟩
  | .hbm, ⟨37, _⟩ => ⟨S2x12x2048, .f32⟩
  | .hbm, ⟨38, _⟩ => ⟨S2x12x2048, .f32⟩
  | .hbm, ⟨39, _⟩ => ⟨S2x12x2048x1, .f32⟩
  | .hbm, ⟨40, _⟩ => ⟨S2x12x2048x2048, .f32⟩
  | .hbm, ⟨41, _⟩ => ⟨S2x12x2048x2048, .f32⟩
  | .hbm, ⟨42, _⟩ => ⟨S2x12x2048x2048, .f32⟩
  | .hbm, ⟨43, _⟩ => ⟨S_, .f32⟩
  | .hbm, ⟨44, _⟩ => ⟨S2x12x2048, .f32⟩
  | .hbm, ⟨45, _⟩ => ⟨S2x12x2048x1, .f32⟩
  | .hbm, ⟨46, _⟩ => ⟨S2x12x2048x2048, .f32⟩
  | .hbm, ⟨47, _⟩ => ⟨S2x12x2048x2048, .f32⟩
  | .hbm, ⟨48, _⟩ => ⟨S2x12x2048x64, .f32⟩
  | .hbm, ⟨49, _⟩ => ⟨S2x2048x12x64, .f32⟩
  | _, _ => ⟨S2x2048x3x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_c : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]

class Facts₀ : Prop where
  slices_S2x2048x3x12x64_S2x2048x1x12x64_0_0_0_0_0 : S2x2048x3x12x64.Slices ![0, 0, 0, 0, 0] S2x2048x1x12x64
  shapeCasts_S2x2048x1x12x64_S2x2048x12x64 : S2x2048x1x12x64.ShapeCasts S2x2048x12x64
  transposes_S2x2048x12x64_S2x12x2048x64_0_2_1_3 : S2x2048x12x64.Transposes [0, 2, 1, 3] S2x12x2048x64
  slices_S2x2048x3x12x64_S2x2048x1x12x64_0_0_1_0_0 : S2x2048x3x12x64.Slices ![0, 0, 1, 0, 0] S2x2048x1x12x64
  slices_S2x2048x3x12x64_S2x2048x1x12x64_0_0_2_0_0 : S2x2048x3x12x64.Slices ![0, 0, 2, 0, 0] S2x2048x1x12x64
  bcast_S_S2x12x2048x2048 : S_.BroadcastsInDim S2x12x2048x2048 (![] : Fin 0 → Fin S2x12x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x12x2048x2048_0_1_2_3 : S1x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.K.Head.lean ====
/-
  One grid point of the attention kernel, as a function of the blocks it is handed.

  The body reads, for each of the twelve heads, the head's 64 columns of the query block and of the three key and
  three value blocks of the band, and writes the head's 64 columns of the output block: the query columns times
  1/8 against the stacked key rows (256 x 768 scores), plus the band's bias, a softmax along the band, the product
  with the stacked value rows, and one scaling by the reciprocal of the row sums. `headOut` is that computation for
  one head; `out7` assembles the output block from the twelve heads' columns; `sound_kernel` says that the body,
  run on whole staging buffers holding the seven input blocks, leaves the inputs as they were and the output
  buffer at `out7` of them.
-/
import proofs.«165588_g46823733461303_cont_8to1_c_288_4_alg».proof.Proof.Gen.Kernel.Launch
import proofs.«165588_g46823733461303_cont_8to1_c_288_4_alg».proof.Proof.Gen.Kernel.Skeleton
import proofs.«165588_g46823733461303_cont_8to1_c_288_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The twelve heads' column rectangles of a 1 x 256 x 768 block -/

abbrev rH0 : Rect S1x256x768 := Rect.unit (s := S1x256x768) ![0, 0, 0] S1x256x64.size inb_S1x256x768_S1x256x64_0_0_0
abbrev rH1 : Rect S1x256x768 := Rect.unit (s := S1x256x768) ![0, 0, 64] S1x256x64.size inb_S1x256x768_S1x256x64_0_0_64
abbrev rH2 : Rect S1x256x768 := Rect.unit (s := S1x256x768) ![0, 0, 128] S1x256x64.size inb_S1x256x768_S1x256x64_0_0_128
abbrev rH3 : Rect S1x256x768 := Rect.unit (s := S1x256x768) ![0, 0, 192] S1x256x64.size inb_S1x256x768_S1x256x64_0_0_192
abbrev rH4 : Rect S1x256x768 := Rect.unit (s := S1x256x768) ![0, 0, 256] S1x256x64.size inb_S1x256x768_S1x256x64_0_0_256
abbrev rH5 : Rect S1x256x768 := Rect.unit (s := S1x256x768) ![0, 0, 320] S1x256x64.size inb_S1x256x768_S1x256x64_0_0_320
abbrev rH6 : Rect S1x256x768 := Rect.unit (s := S1x256x768) ![0, 0, 384] S1x256x64.size inb_S1x256x768_S1x256x64_0_0_384
abbrev rH7 : Rect S1x256x768 := Rect.unit (s := S1x256x768) ![0, 0, 448] S1x256x64.size inb_S1x256x768_S1x256x64_0_0_448
abbrev rH8 : Rect S1x256x768 := Rect.unit (s := S1x256x768) ![0, 0, 512] S1x256x64.size inb_S1x256x768_S1x256x64_0_0_512
abbrev rH9 : Rect S1x256x768 := Rect.unit (s := S1x256x768) ![0, 0, 576] S1x256x64.size inb_S1x256x768_S1x256x64_0_0_576
abbrev rH10 : Rect S1x256x768 := Rect.unit (s := S1x256x768) ![0, 0, 640] S1x256x64.size inb_S1x256x768_S1x256x64_0_0_640
abbrev rH11 : Rect S1x256x768 := Rect.unit (s := S1x256x768) ![0, 0, 704] S1x256x64.size inb_S1x256x768_S1x256x64_0_0_704

/-! ## One head -/

/-- One head's 64 output columns from the band's bias and the head's columns of the seven input blocks. -/
def headOut (bias : FVec F S256x768 .f32) (q km2 km1 kc vm2 vm1 vc : Vec F S1x256x64 .f32) : FVec F S1x256x64 .f32 :=
  have q2 : FVec F S256x64 .f32 := shapeCast S256x64 q shapeCasts_S1x256x64_S256x64
  have sc : F .f32 := Scalar.ofBits .f32 0x3E000000#32
  have qs : FVec F S256x64 .f32 := mulf q2 (broadcast S256x64 sc)
  have k0 : FVec F S256x64 .f32 := shapeCast S256x64 km2 shapeCasts_S1x256x64_S256x64
  have k1 : FVec F S256x64 .f32 := shapeCast S256x64 km1 shapeCasts_S1x256x64_S256x64
  have k2 : FVec F S256x64 .f32 := shapeCast S256x64 kc shapeCasts_S1x256x64_S256x64
  have ks : FVec F S768x64 .f32 := concatenate S768x64 0 [⟨S256x64, k0⟩, ⟨S256x64, k1⟩, ⟨S256x64, k2⟩] concatenates_S256x64_S256x64_S256x64_S768x64_d0
  have v0 : FVec F S256x64 .f32 := shapeCast S256x64 vm2 shapeCasts_S1x256x64_S256x64
  have v1 : FVec F S256x64 .f32 := shapeCast S256x64 vm1 shapeCasts_S1x256x64_S256x64
  have v2 : FVec F S256x64 .f32 := shapeCast S256x64 vc shapeCasts_S1x256x64_S256x64
  have vs : FVec F S768x64 .f32 := concatenate S768x64 0 [⟨S256x64, v0⟩, ⟨S256x64, v1⟩, ⟨S256x64, v2⟩] concatenates_S256x64_S256x64_S256x64_S768x64_d0
  have s0 : FVec F S256x768 .f32 := matmul dot_S256x64_S768x64_S256x768_1_1_0_0_n_n none qs ks (constant S256x768 .f32 0x00000000#32)
  have s : FVec F S256x768 .f32 := addf s0 bias
  have mx : FVec F S256 .f32 := multiReduction .maximumf [1] S256 s 0xFF800000#32 reduces_S256x768_S256 (.inl rfl) rfl
  have mb : FVec F S256x768 .f32 := broadcastTo S256x768 (shapeCast S256x1 mx shapeCasts_S256_S256x1) broadcasts_S256x1_S256x768
  have p : FVec F S256x768 .f32 := exp (subf s mb)
  have dn : FVec F S256 .f32 := multiReduction .add [1] S256 p 0x00000000#32 reduces_S256x768_S256 (.inl rfl) rfl
  have d1 : FVec F S256x1 .f32 := shapeCast S256x1 dn shapeCasts_S256_S256x1
  have o : FVec F S256x64 .f32 := matmul dot_S256x768_S768x64_S256x64_1_0_0_1_n_n none p vs (constant S256x64 .f32 0x00000000#32)
  have one : F .f32 := Scalar.ofBits .f32 0x3F800000#32
  have rc : FVec F S256x1 .f32 := divf (broadcast S256x1 one) d1
  have r : FVec F S256x64 .f32 := mulf o (broadcastTo S256x64 rc broadcasts_S256x1_S256x64)
  shapeCast S1x256x64 r shapeCasts_S256x64_S1x256x64

/-! ## The output block -/

/-- The output block after the body: the twelve heads' stores as pieces, the last store first. -/
def out7 (bias : FVec F S256x768 .f32) (x0 x1 x2 x3 x4 x5 x6 : Vec F S1x256x768 .f32) : Vec F S1x256x768 .f32 :=
  View.canon [
    ⟨rH11, headOut bias (View.ld x0 rH11) (View.ld x1 rH11) (View.ld x2 rH11) (View.ld x3 rH11) (View.ld x4 rH11) (View.ld x5 rH11) (View.ld x6 rH11)⟩,
    ⟨rH10, headOut bias (View.ld x0 rH10) (View.ld x1 rH10) (View.ld x2 rH10) (View.ld x3 rH10) (View.ld x4 rH10) (View.ld x5 rH10) (View.ld x6 rH10)⟩,
    ⟨rH9, headOut bias (View.ld x0 rH9) (View.ld x1 rH9) (View.ld x2 rH9) (View.ld x3 rH9) (View.ld x4 rH9) (View.ld x5 rH9) (View.ld x6 rH9)⟩,
    ⟨rH8, headOut bias (View.ld x0 rH8) (View.ld x1 rH8) (View.ld x2 rH8) (View.ld x3 rH8) (View.ld x4 rH8) (View.ld x5 rH8) (View.ld x6 rH8)⟩,
    ⟨rH7, headOut bias (View.ld x0 rH7) (View.ld x1 rH7) (View.ld x2 rH7) (View.ld x3 rH7) (View.ld x4 rH7) (View.ld x5 rH7) (View.ld x6 rH7)⟩,
    ⟨rH6, headOut bias (View.ld x0 rH6) (View.ld x1 rH6) (View.ld x2 rH6) (View.ld x3 rH6) (View.ld x4 rH6) (View.ld x5 rH6) (View.ld x6 rH6)⟩,
    ⟨rH5, headOut bias (View.ld x0 rH5) (View.ld x1 rH5) (View.ld x2 rH5) (View.ld x3 rH5) (View.ld x4 rH5) (View.ld x5 rH5) (View.ld x6 rH5)⟩,
    ⟨rH4, headOut bias (View.ld x0 rH4) (View.ld x1 rH4) (View.ld x2 rH4) (View.ld x3 rH4) (View.ld x4 rH4) (View.ld x5 rH4) (View.ld x6 rH4)⟩,
    ⟨rH3, headOut bias (View.ld x0 rH3) (View.ld x1 rH3) (View.ld x2 rH3) (View.ld x3 rH3) (View.ld x4 rH3) (View.ld x5 rH3) (View.ld x6 rH3)⟩,
    ⟨rH2, headOut bias (View.ld x0 rH2) (View.ld x1 rH2) (View.ld x2 rH2) (View.ld x3 rH2) (View.ld x4 rH2) (View.ld x5 rH2) (View.ld x6 rH2)⟩,
    ⟨rH1, headOut bias (View.ld x0 rH1) (View.ld x1 rH1) (View.ld x2 rH1) (View.ld x3 rH1) (View.ld x4 rH1) (View.ld x5 rH1) (View.ld x6 rH1)⟩,
    ⟨rH0, headOut bias (View.ld x0 rH0) (View.ld x1 rH0) (View.ld x2 rH0) (View.ld x3 rH0) (View.ld x4 rH0) (View.ld x5 rH0) (View.ld x6 rH0)⟩]

/-- The twelve column rectangles tile the block, so they cover it. -/
theorem cover7 (p0 : Vec F S1x256x64 .f32) (p1 : Vec F S1x256x64 .f32) (p2 : Vec F S1x256x64 .f32) (p3 : Vec F S1x256x64 .f32) (p4 : Vec F S1x256x64 .f32) (p5 : Vec F S1x256x64 .f32) (p6 : Vec F S1x256x64 .f32) (p7 : Vec F S1x256x64 .f32) (p8 : Vec F S1x256x64 .f32) (p9 : Vec F S1x256x64 .f32) (p10 : Vec F S1x256x64 .f32) (p11 : Vec F S1x256x64 .f32) (y : S1x256x768.Idx) :
    ∃ pc ∈ ([⟨rH11, p11⟩, ⟨rH10, p10⟩, ⟨rH9, p9⟩, ⟨rH8, p8⟩, ⟨rH7, p7⟩, ⟨rH6, p6⟩, ⟨rH5, p5⟩, ⟨rH4, p4⟩, ⟨rH3, p3⟩, ⟨rH2, p2⟩, ⟨rH1, p1⟩, ⟨rH0, p0⟩] : List (View.Piece (Elt F) S1x256x768 .f32)), y ∈ pc.1.set :=
  View.cover_of_tiled [⟨rH11, p11⟩, ⟨rH10, p10⟩, ⟨rH9, p9⟩, ⟨rH8, p8⟩, ⟨rH7, p7⟩, ⟨rH6, p6⟩, ⟨rH5, p5⟩, ⟨rH4, p4⟩, ⟨rH3, p3⟩, ⟨rH2, p2⟩, ⟨rH1, p1⟩, ⟨rH0, p0⟩] S1x256x64.size (by rfl) y

end Cert.Kernel.Hand

end
-- ==== Proof.K.Body.lean ====
/-
  The body's triple: run on whole staging buffers that hold the seven input blocks, the kernel body leaves the
  inputs as they were and the output buffer at `out7` of them — the twelve heads' stores, read back as one block.
-/
import proofs.«165588_g46823733461303_cont_8to1_c_288_4_alg».proof.Proof.K.Head

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole staging memrefs, the inputs' at read contents `x0 … x6` and the output's at anything,
    runs to the continuation holding the inputs' as they were and the output's at `out7` of the inputs' and of the
    band's bias at the grid point. -/
theorem sound_kernel (c : Dev nD) (E : Set ℕ) (i : grid0.Coords) (arg2 : Memref sig .tc .vmem S1x256x768 .f32) (harg2 : arg2.IsWhole) (arg3 : Memref sig .tc .vmem S1x256x768 .f32) (harg3 : arg3.IsWhole) (arg4 : Memref sig .tc .vmem S1x256x768 .f32) (harg4 : arg4.IsWhole) (arg5 : Memref sig .tc .vmem S1x256x768 .f32) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .f32) (harg8 : arg8.IsWhole) (arg9 : Memref sig .tc .vmem S1x256x768 .f32) (harg9 : arg9.IsWhole)
    (x0 x1 x2 x3 x4 x5 x6 : Vec F S1x256x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 (k0_pay2 (F := F) i) x0 x1 x2 x3 x4 x5 x6)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _ _ _ _ _ _ _ _ _ _ _ _)

end Cert.Kernel.Hand

end
-- ==== Proof.K.Frame.lean ====
/-
  The pipeline's proof data and the body obligation.

  Seven input windows read one array — the query block of the point, and for the keys and for the values the blocks
  two back, one back and at the point (clamped at the first block) — and one output window writes the result array's
  block of the point. After the body each input's staging buffer still holds its block, and the output's holds
  `out7` of the seven input blocks and of the band's bias at the point. The one array behind the seven input windows
  is held at seven fractions of the full share.
-/
import proofs.«165588_g46823733461303_cont_8to1_c_288_4_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The shares of the one input array -/

/-- The share each input window holds of its array: the full share of the one array behind the seven input
    windows, dealt as six halvings — window 0 keeps what is left, windows 1 to 6 take one token each. -/
def qshare : Fin 8 → PosShare TreeShare
  | ⟨0, _⟩ => Transfers.shareDrop fullShare 6
  | ⟨1, _⟩ => Transfers.shareTokN fullShare 0
  | ⟨2, _⟩ => Transfers.shareTokN fullShare 1
  | ⟨3, _⟩ => Transfers.shareTokN fullShare 2
  | ⟨4, _⟩ => Transfers.shareTokN fullShare 3
  | ⟨5, _⟩ => Transfers.shareTokN fullShare 4
  | ⟨6, _⟩ => Transfers.shareTokN fullShare 5
  | ⟨7, _⟩ => fullShare

/-! ## The proof data -/

/-- The proof data on core `c`: the arrays as the region finds them; after the body at point `t` each input's buffer
    at its block and the output's at `out7` of the input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (k0_pay2 (F := F) (grid0.coords t)) (iblk V c 0 t) (iblk V c 1 t) (iblk V c 2 t) (iblk V c 3 t) (iblk V c 4 t) (iblk V c 5 t) (iblk V c 6 t)
  Φ _ := Pipeline.ΦA spec0 c
  q := qshare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = iblk V c 6 t := by dsimp only [dat0]
theorem after7 (c : Dev nD) (t : Fin cfg0.N) :
    (dat0 V c).after 7 t = out7 (k0_pay2 (F := F) (grid0.coords t)) (iblk V c 0 t) (iblk V c 1 t) (iblk V c 2 t) (iblk V c 3 t) (iblk V c 4 t) (iblk V c 5 t) (iblk V c 6 t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d
theorem before5 (c : Dev nD) (t : Fin cfg0.N) (d) : (dat0 V c).before 5 t d = iblk V c 5 t :=
  before5_of V (dat0 V c) (A_eq V c 5) (after5 V c) t d
theorem before6 (c : Dev nD) (t : Fin cfg0.N) (d) : (dat0 V c).before 6 t d = iblk V c 6 t :=
  before6_of V (dat0 V c) (A_eq V c 6) (after6 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat0 V c).Φ t.succ = (dat0 V c).Φ t.castSucc from rfl,
    show (dat0 V c).owesAt () t.succ = (dat0 V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.Shares.lean ====
/-
  One array behind seven input windows: its full share dealt to the windows, and gathered again.

  The region is handed the query-key-value array and the result array whole. The seven input windows hold the first
  at seven fractions of the full share (six halvings), at the same contents; the output window holds the second at
  the full share. Dealing is six applications of the halving law of a points-to along its share; gathering is the
  same law read backwards, the seven pieces agreeing on the contents.
-/
import proofs.«165588_g46823733461303_cont_8to1_c_288_4_alg».proof.Proof.K.Frame
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A points-to at the full share is the seven fractions `qshare 0 … qshare 6` of it, at the same contents. -/
theorem deal7 {ℓ : Loc nD τ sig} (f : Buf (Elt F) ℓ) :
    (ℓ ↦{fullShare} f : sProp 𝕄) ⊣⊢ iprop((ℓ ↦{qshare 0} f) ∗ (ℓ ↦{qshare 1} f) ∗ (ℓ ↦{qshare 2} f) ∗ (ℓ ↦{qshare 3} f)
        ∗ (ℓ ↦{qshare 4} f) ∗ (ℓ ↦{qshare 5} f) ∗ (ℓ ↦{qshare 6} f)) := by
  have s : ∀ k, (ℓ ↦{Transfers.shareDrop fullShare k} f : sProp 𝕄)
      ⊣⊢ iprop((ℓ ↦{Transfers.shareDrop fullShare (k + 1)} f) ∗ ℓ ↦{Transfers.shareTokN fullShare k} f) :=
    fun k => pointsTo_share (PosShare.mem_left_op_right _)
  have s0 := (s 0).1; have s1 := (s 1).1; have s2 := (s 2).1; have s3 := (s 3).1; have s4 := (s 4).1; have s5 := (s 5).1
  have j0 := (s 0).2; have j1 := (s 1).2; have j2 := (s 2).2; have j3 := (s 3).2; have j4 := (s 4).2; have j5 := (s 5).2
  show (ℓ ↦{Transfers.shareDrop fullShare 0} f : sProp 𝕄)
    ⊣⊢ iprop((ℓ ↦{Transfers.shareDrop fullShare 6} f) ∗ (ℓ ↦{Transfers.shareTokN fullShare 0} f) ∗ (ℓ ↦{Transfers.shareTokN fullShare 1} f)
        ∗ (ℓ ↦{Transfers.shareTokN fullShare 2} f) ∗ (ℓ ↦{Transfers.shareTokN fullShare 3} f) ∗ (ℓ ↦{Transfers.shareTokN fullShare 4} f)
        ∗ (ℓ ↦{Transfers.shareTokN fullShare 5} f))
  constructor
  · iintro G0
    ihave G1 := s0 $$ G0; icases G1 with ⟨G1, T0⟩
    ihave G2 := s1 $$ G1; icases G2 with ⟨G2, T1⟩
    ihave G3 := s2 $$ G2; icases G3 with ⟨G3, T2⟩
    ihave G4 := s3 $$ G3; icases G4 with ⟨G4, T3⟩
    ihave G5 := s4 $$ G4; icases G5 with ⟨G5, T4⟩
    ihave G6 := s5 $$ G5; icases G6 with ⟨G6, T5⟩
    isplitl [G6]; · iexact G6
    isplitl [T0]; · iexact T0
    isplitl [T1]; · iexact T1
    isplitl [T2]; · iexact T2
    isplitl [T3]; · iexact T3
    isplitl [T4]; · iexact T4
    iexact T5
  · iintro ⟨G6, T0, T1, T2, T3, T4, T5⟩
    ihave G5 := j5 $$ [G6 T5]
    · isplitl [G6] <;> iassumption
    ihave G4 := j4 $$ [G5 T4]
    · isplitl [G5] <;> iassumption
    ihave G3 := j3 $$ [G4 T3]
    · isplitl [G4] <;> iassumption
    ihave G2 := j2 $$ [G3 T2]
    · isplitl [G3] <;> iassumption
    ihave G1 := j1 $$ [G2 T1]
    · isplitl [G2] <;> iassumption
    ihave G0 := j0 $$ [G1 T0]
    · isplitl [G1] <;> iassumption
    iexact G0

variable (V : (c : Dev nD) → (b : Ref sig .tc) → Buf (Elt F) ((c : Thread nD τ).loc b))

/-- The windows' arrays are two buffers. -/
theorem arr_image : Finset.univ.image (Pipeline.arrRef spec0) = {main_v0, main_v1} := by decide

/-- The eight windows' arrays, held at contents `Fw`: the input array seven times at its fractions, the output
    array once at the full share. -/
theorem arrays_eq (c : Dev nD) (Fw : (w : Fin cfg0.W) → Buf (Elt F) ((cfg0.win w).arr.view.loc (c : Thread nD τ))) :
    ((dat0 V c).arrays Fw : sProp 𝕄)
      = iprop((((c : Thread nD τ).loc main_v0) ↦{qshare 0} Fw 0) ∗ (((c : Thread nD τ).loc main_v0) ↦{qshare 1} Fw 1)
        ∗ (((c : Thread nD τ).loc main_v0) ↦{qshare 2} Fw 2) ∗ (((c : Thread nD τ).loc main_v0) ↦{qshare 3} Fw 3)
        ∗ (((c : Thread nD τ).loc main_v0) ↦{qshare 4} Fw 4) ∗ (((c : Thread nD τ).loc main_v0) ↦{qshare 5} Fw 5)
        ∗ (((c : Thread nD τ).loc main_v0) ↦{qshare 6} Fw 6) ∗ (((c : Thread nD τ).loc main_v1) ↦{fullShare} Fw 7)) := by
  unfold Pipeline.Dat.arrays
  rw [bigSep_W0, (arr_whole0 0).set_eq_univ, (arr_whole0 7).set_eq_univ]
  rfl

/-- The two buffers behind the windows' arrays, each whole at the full share. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1)) := by
  unfold Pipeline.arrBufs
  rw [arr_image, bigSep_insert (by decide), bigSep_singleton]
  rfl

/-- ENTRY: the unscoped buffers at `V` are the windows' arrays at their entry contents and the rest. -/
theorem arrays_of_bufs (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  rw [arrays_eq, arrBufs_eq]
  iintro ⟨H0, H1⟩
  ihave Hs := (deal7 _).1 $$ H0
  icases Hs with ⟨A0, A1, A2, A3, A4, A5, A6⟩
  isplitl [A0]; · iexact A0
  isplitl [A1]; · iexact A1
  isplitl [A2]; · iexact A2
  isplitl [A3]; · iexact A3
  isplitl [A4]; · iexact A4
  isplitl [A5]; · iexact A5
  isplitl [A6]; · iexact A6
  iexact H1

/-- An input window's array is never written: after every write-back it holds the entry contents. -/
theorem arrAt_input (c : Dev nD) (n : ℕ) :
    (dat0 V c).arrAt 0 n = V c main_v0 ∧ (dat0 V c).arrAt 1 n = V c main_v0 ∧ (dat0 V c).arrAt 2 n = V c main_v0
      ∧ (dat0 V c).arrAt 3 n = V c main_v0 ∧ (dat0 V c).arrAt 4 n = V c main_v0 ∧ (dat0 V c).arrAt 5 n = V c main_v0
      ∧ (dat0 V c).arrAt 6 n = V c main_v0 :=
  ⟨((dat0 V c).arrAt_in 0 rfl _).trans (A_eq V c 0), ((dat0 V c).arrAt_in 1 rfl _).trans (A_eq V c 1),
   ((dat0 V c).arrAt_in 2 rfl _).trans (A_eq V c 2), ((dat0 V c).arrAt_in 3 rfl _).trans (A_eq V c 3),
   ((dat0 V c).arrAt_in 4 rfl _).trans (A_eq V c 4), ((dat0 V c).arrAt_in 5 rfl _).trans (A_eq V c 5),
   ((dat0 V c).arrAt_in 6 rfl _).trans (A_eq V c 6)⟩

/-- EXIT: the windows' arrays after the last write-back and the rest are the unscoped buffers at any contents `V'`
    that hold the result array's final contents, and elsewhere what `V` holds. -/
theorem bufs_of_arrays (c : Dev nD) (V' : (b : Ref sig .tc) → Buf (Elt F) ((c : Thread nD τ).loc b))
    (h0 : V' main_v0 = V c main_v0) (h1 : V' main_v1 = (dat0 V c).arrAt 7 cfg0.N)
    (hrest : ∀ b, b ∉ Finset.univ.image (Pipeline.arrRef spec0) → V' b = V c b) :
    iprop((dat0 V c).arrays ((dat0 V c).arrAt · cfg0.N) ∗ Pipeline.unscopedRest spec0 c (V c)) ⊢ (unscopedBufs c V' : sProp 𝕄) := by
  rw [Pipeline.unscopedBufs_split₀ cfgs 0 winFacts₀0.arr_unscoped c V']
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by rw [hrest b (Finset.mem_sdiff.mp hb).2]
  rw [hr]
  refine sep_mono ?_ .rfl
  rw [arrays_eq]
  obtain ⟨e0, e1, e2, e3, e4, e5, e6⟩ := arrAt_input V c cfg0.N
  rw [arrBufs_eq, h0, h1, e0, e1, e2, e3, e4, e5, e6]
  iintro ⟨A0, A1, A2, A3, A4, A5, A6, H1⟩
  isplitr [H1]
  · iapply (deal7 _).2
    isplitl [A0]; · iexact A0
    isplitl [A1]; · iexact A1
    isplitl [A2]; · iexact A2
    isplitl [A3]; · iexact A3
    isplitl [A4]; · iexact A4
    isplitl [A5]; · iexact A5
    iexact A6
  · iexact H1

end Cert.Kernel.Hand

end
-- ==== Proof.K.Run.lean ====
/-
  The run of the whole program: a reshape of the argument, the attention region, a reshape of its result.

  Between the items every unscoped buffer is held whole at a valuation: the launch memory; after the first reshape;
  after the region, where the result array holds what the pipeline's write-backs leave and every other buffer is as
  it was; after the last reshape. Every weakly fair execution terminates, the argument array ends as launched, and
  the program's result is the last reshape of the result array's final contents.
-/
import proofs.«165588_g46823733461303_cont_8to1_c_288_4_alg».proof.Proof.K.Shares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result array at what the write-backs leave, every other buffer as entered. -/
def W2 (c : Dev nD) : Valuation τ sig (Elt F) :=
  Function.update (W1 m ρ c) (Proc.devRef .tc main_v1) ((dat0 (V1 m ρ) c).arrAt 7 cfg0.N)
theorem W2_out (c : Dev nD) : W2 m ρ c (Proc.devRef .tc main_v1) = (dat0 (V1 m ρ) c).arrAt 7 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b
/-- After the last reshape. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- THE REGION over the thread state: entered from every unscoped buffer at `W1`, left at `W2`. The two arrays split
    out of the unscoped buffers, the input array dealt to its seven windows, and put back at the exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_bufs (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N)
          ∗ Pipeline.unscopedRest (Ix := Unit) (Name := ℕ) (U := UR sig nD τ) (Lvl := ℕ) spec0 c (V1 m ρ c))
        ⊢ (unscopedBufs c (V2 m ρ c) : sProp 𝕄) :=
      bufs_of_arrays (V1 m ρ) c (V2 m ρ c) (W2_of_ne m ρ c main_v0 (by decide)) (W2_out m ρ c)
        (fun b hb => W2_of_ne m ρ c b fun e => hb (by rw [arr_image, e]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: every weakly fair execution of the program from memory `m` with zero counters terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.K.Read.lean ====
/-
  The run, read: the argument array ends as launched; the region finds the flattened argument; the program's result
  is the result array's final contents with the column axis split into heads and features.
-/
import proofs.«165588_g46823733461303_cont_8to1_c_288_4_alg».proof.Proof.K.Run
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- No item writes the argument: neither reshape writes it, and the region writes only the result array. -/
theorem W3_arg (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- THE FRAME: every weakly fair execution terminates, nothing faulting, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_arg m ρ c)) (run_main m ρ)

/-- The region finds the argument flattened to 2 x 2048 x 2304. -/
theorem V1_in (c : Dev nD) :
    (V1 m ρ c main_v0 : S2x2048x2304.Idx → Elt F .f32)
      = shapeCast S2x2048x2304 (m ((c : Thread nD τ).loc main_arg0)) Facts₀.shapeCasts_S2x2048x3x12x64_S2x2048x2304 := by
  show StableHlo.after hostOps0 (W0 m ρ c) (Proc.devRef .tc main_v0) = _
  after_results
  rfl

/-- The program's result is the result array's final contents, its 768 columns split into 12 heads of 64 features. -/
theorem W3_res (c : Dev nD) :
    (W3 m ρ c (Proc.devRef .tc main_v2) : S2x2048x12x64.Idx → Elt F .f32)
      = shapeCast S2x2048x12x64 ((dat0 (V1 m ρ) c).arrAt 7 cfg0.N) Facts₀.shapeCasts_S2x2048x768_S2x2048x12x64 := by
  show StableHlo.after hostOps1 (W2 m ρ c) (Proc.devRef .tc main_v2) = _
  after_results
  rw [W2_out]
  rfl

/-- THE RUN with the result named: besides the frame, the program's result buffer ends at the split of the result
    array's final contents. -/
theorem run_named : θ_run defs (onTc (τ := τ) (main (F := F))) ⟨m, fun _ => 0, ρ⟩ (fun r => ∀ c : Dev nD,
      r.2.mem ((c.tc : Thread nD τ).loc main_v2)
          = shapeCast S2x2048x12x64 ((dat0 (V1 m ρ) c).arrAt 7 cfg0.N) Facts₀.shapeCasts_S2x2048x768_S2x2048x12x64
      ∧ r.2.mem ((c.tc : Thread nD τ).loc main_arg0) = m ((c.tc : Thread nD τ).loc main_arg0)) :=
  (θ_run defs _ _).mono (fun r h c => ⟨(h c _ (mem_uc main_v2 (by decide))).trans (W3_res m ρ c),
      (h c _ (mem_uc main_arg0 (by decide))).trans (W3_arg m ρ c)⟩) (run_main m ρ)

end Cert.Kernel.Hand

end
-- ==== Proof.KI.Head.lean ====
/-
  One grid point of the attention kernel, as a function of the blocks it is handed.

  The body reads, for each of the twelve heads, the head's 64 columns of the query block and of the three key and
  three value blocks of the band, and writes the head's 64 columns of the output block: the query columns times
  1/8 against the stacked key rows (256 x 768 scores), plus the band's bias, a softmax along the band, the product
  with the stacked value rows, and one scaling by the reciprocal of the row sums. `headOut` is that computation for
  one head; `out7` assembles the output block from the twelve heads' columns; `sound_kernel` says that the body,
  run on whole staging buffers holding the seven input blocks, leaves the inputs as they were and the output
  buffer at `out7` of them.
-/
import proofs.«165588_g46823733461303_cont_8to1_c_288_4_alg».proof.Proof.Gen.KernelIdeal.Launch
import proofs.«165588_g46823733461303_cont_8to1_c_288_4_alg».proof.Proof.Gen.KernelIdeal.Skeleton
import proofs.«165588_g46823733461303_cont_8to1_c_288_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The twelve heads' column rectangles of a 1 x 256 x 768 block -/

abbrev rH0 : Rect S1x256x768 := Rect.unit (s := S1x256x768) ![0, 0, 0] S1x256x64.size inb_S1x256x768_S1x256x64_0_0_0
abbrev rH1 : Rect S1x256x768 := Rect.unit (s := S1x256x768) ![0, 0, 64] S1x256x64.size inb_S1x256x768_S1x256x64_0_0_64
abbrev rH2 : Rect S1x256x768 := Rect.unit (s := S1x256x768) ![0, 0, 128] S1x256x64.size inb_S1x256x768_S1x256x64_0_0_128
abbrev rH3 : Rect S1x256x768 := Rect.unit (s := S1x256x768) ![0, 0, 192] S1x256x64.size inb_S1x256x768_S1x256x64_0_0_192
abbrev rH4 : Rect S1x256x768 := Rect.unit (s := S1x256x768) ![0, 0, 256] S1x256x64.size inb_S1x256x768_S1x256x64_0_0_256
abbrev rH5 : Rect S1x256x768 := Rect.unit (s := S1x256x768) ![0, 0, 320] S1x256x64.size inb_S1x256x768_S1x256x64_0_0_320
abbrev rH6 : Rect S1x256x768 := Rect.unit (s := S1x256x768) ![0, 0, 384] S1x256x64.size inb_S1x256x768_S1x256x64_0_0_384
abbrev rH7 : Rect S1x256x768 := Rect.unit (s := S1x256x768) ![0, 0, 448] S1x256x64.size inb_S1x256x768_S1x256x64_0_0_448
abbrev rH8 : Rect S1x256x768 := Rect.unit (s := S1x256x768) ![0, 0, 512] S1x256x64.size inb_S1x256x768_S1x256x64_0_0_512
abbrev rH9 : Rect S1x256x768 := Rect.unit (s := S1x256x768) ![0, 0, 576] S1x256x64.size inb_S1x256x768_S1x256x64_0_0_576
abbrev rH10 : Rect S1x256x768 := Rect.unit (s := S1x256x768) ![0, 0, 640] S1x256x64.size inb_S1x256x768_S1x256x64_0_0_640
abbrev rH11 : Rect S1x256x768 := Rect.unit (s := S1x256x768) ![0, 0, 704] S1x256x64.size inb_S1x256x768_S1x256x64_0_0_704

/-! ## One head -/

/-- One head's 64 output columns from the band's bias and the head's columns of the seven input blocks. -/
def headOut (bias : FVec F S256x768 .f32) (q km2 km1 kc vm2 vm1 vc : Vec F S1x256x64 .f32) : FVec F S1x256x64 .f32 :=
  have q2 : FVec F S256x64 .f32 := shapeCast S256x64 q shapeCasts_S1x256x64_S256x64
  have sc : F .f32 := Scalar.ofBits .f32 0x3E000000#32
  have qs : FVec F S256x64 .f32 := mulf q2 (broadcast S256x64 sc)
  have k0 : FVec F S256x64 .f32 := shapeCast S256x64 km2 shapeCasts_S1x256x64_S256x64
  have k1 : FVec F S256x64 .f32 := shapeCast S256x64 km1 shapeCasts_S1x256x64_S256x64
  have k2 : FVec F S256x64 .f32 := shapeCast S256x64 kc shapeCasts_S1x256x64_S256x64
  have ks : FVec F S768x64 .f32 := concatenate S768x64 0 [⟨S256x64, k0⟩, ⟨S256x64, k1⟩, ⟨S256x64, k2⟩] concatenates_S256x64_S256x64_S256x64_S768x64_d0
  have v0 : FVec F S256x64 .f32 := shapeCast S256x64 vm2 shapeCasts_S1x256x64_S256x64
  have v1 : FVec F S256x64 .f32 := shapeCast S256x64 vm1 shapeCasts_S1x256x64_S256x64
  have v2 : FVec F S256x64 .f32 := shapeCast S256x64 vc shapeCasts_S1x256x64_S256x64
  have vs : FVec F S768x64 .f32 := concatenate S768x64 0 [⟨S256x64, v0⟩, ⟨S256x64, v1⟩, ⟨S256x64, v2⟩] concatenates_S256x64_S256x64_S256x64_S768x64_d0
  have s0 : FVec F S256x768 .f32 := matmul dot_S256x64_S768x64_S256x768_1_1_0_0_n_n none qs ks (constant S256x768 .f32 0x00000000#32)
  have s : FVec F S256x768 .f32 := addf s0 bias
  have mx : FVec F S256 .f32 := multiReduction .maximumf [1] S256 s 0xFF800000#32 reduces_S256x768_S256 (.inl rfl) rfl
  have mb : FVec F S256x768 .f32 := broadcastTo S256x768 (shapeCast S256x1 mx shapeCasts_S256_S256x1) broadcasts_S256x1_S256x768
  have p : FVec F S256x768 .f32 := exp (subf s mb)
  have dn : FVec F S256 .f32 := multiReduction .add [1] S256 p 0x00000000#32 reduces_S256x768_S256 (.inl rfl) rfl
  have d1 : FVec F S256x1 .f32 := shapeCast S256x1 dn shapeCasts_S256_S256x1
  have o : FVec F S256x64 .f32 := matmul dot_S256x768_S768x64_S256x64_1_0_0_1_n_n none p vs (constant S256x64 .f32 0x00000000#32)
  have one : F .f32 := Scalar.ofBits .f32 0x3F800000#32
  have rc : FVec F S256x1 .f32 := divf (broadcast S256x1 one) d1
  have r : FVec F S256x64 .f32 := mulf o (broadcastTo S256x64 rc broadcasts_S256x1_S256x64)
  shapeCast S1x256x64 r shapeCasts_S256x64_S1x256x64

/-! ## The output block -/

/-- The output block after the body: the twelve heads' stores as pieces, the last store first. -/
def out7 (bias : FVec F S256x768 .f32) (x0 x1 x2 x3 x4 x5 x6 : Vec F S1x256x768 .f32) : Vec F S1x256x768 .f32 :=
  View.canon [
    ⟨rH11, headOut bias (View.ld x0 rH11) (View.ld x1 rH11) (View.ld x2 rH11) (View.ld x3 rH11) (View.ld x4 rH11) (View.ld x5 rH11) (View.ld x6 rH11)⟩,
    ⟨rH10, headOut bias (View.ld x0 rH10) (View.ld x1 rH10) (View.ld x2 rH10) (View.ld x3 rH10) (View.ld x4 rH10) (View.ld x5 rH10) (View.ld x6 rH10)⟩,
    ⟨rH9, headOut bias (View.ld x0 rH9) (View.ld x1 rH9) (View.ld x2 rH9) (View.ld x3 rH9) (View.ld x4 rH9) (View.ld x5 rH9) (View.ld x6 rH9)⟩,
    ⟨rH8, headOut bias (View.ld x0 rH8) (View.ld x1 rH8) (View.ld x2 rH8) (View.ld x3 rH8) (View.ld x4 rH8) (View.ld x5 rH8) (View.ld x6 rH8)⟩,
    ⟨rH7, headOut bias (View.ld x0 rH7) (View.ld x1 rH7) (View.ld x2 rH7) (View.ld x3 rH7) (View.ld x4 rH7) (View.ld x5 rH7) (View.ld x6 rH7)⟩,
    ⟨rH6, headOut bias (View.ld x0 rH6) (View.ld x1 rH6) (View.ld x2 rH6) (View.ld x3 rH6) (View.ld x4 rH6) (View.ld x5 rH6) (View.ld x6 rH6)⟩,
    ⟨rH5, headOut bias (View.ld x0 rH5) (View.ld x1 rH5) (View.ld x2 rH5) (View.ld x3 rH5) (View.ld x4 rH5) (View.ld x5 rH5) (View.ld x6 rH5)⟩,
    ⟨rH4, headOut bias (View.ld x0 rH4) (View.ld x1 rH4) (View.ld x2 rH4) (View.ld x3 rH4) (View.ld x4 rH4) (View.ld x5 rH4) (View.ld x6 rH4)⟩,
    ⟨rH3, headOut bias (View.ld x0 rH3) (View.ld x1 rH3) (View.ld x2 rH3) (View.ld x3 rH3) (View.ld x4 rH3) (View.ld x5 rH3) (View.ld x6 rH3)⟩,
    ⟨rH2, headOut bias (View.ld x0 rH2) (View.ld x1 rH2) (View.ld x2 rH2) (View.ld x3 rH2) (View.ld x4 rH2) (View.ld x5 rH2) (View.ld x6 rH2)⟩,
    ⟨rH1, headOut bias (View.ld x0 rH1) (View.ld x1 rH1) (View.ld x2 rH1) (View.ld x3 rH1) (View.ld x4 rH1) (View.ld x5 rH1) (View.ld x6 rH1)⟩,
    ⟨rH0, headOut bias (View.ld x0 rH0) (View.ld x1 rH0) (View.ld x2 rH0) (View.ld x3 rH0) (View.ld x4 rH0) (View.ld x5 rH0) (View.ld x6 rH0)⟩]

/-- The twelve column rectangles tile the block, so they cover it. -/
theorem cover7 (p0 : Vec F S1x256x64 .f32) (p1 : Vec F S1x256x64 .f32) (p2 : Vec F S1x256x64 .f32) (p3 : Vec F S1x256x64 .f32) (p4 : Vec F S1x256x64 .f32) (p5 : Vec F S1x256x64 .f32) (p6 : Vec F S1x256x64 .f32) (p7 : Vec F S1x256x64 .f32) (p8 : Vec F S1x256x64 .f32) (p9 : Vec F S1x256x64 .f32) (p10 : Vec F S1x256x64 .f32) (p11 : Vec F S1x256x64 .f32) (y : S1x256x768.Idx) :
    ∃ pc ∈ ([⟨rH11, p11⟩, ⟨rH10, p10⟩, ⟨rH9, p9⟩, ⟨rH8, p8⟩, ⟨rH7, p7⟩, ⟨rH6, p6⟩, ⟨rH5, p5⟩, ⟨rH4, p4⟩, ⟨rH3, p3⟩, ⟨rH2, p2⟩, ⟨rH1, p1⟩, ⟨rH0, p0⟩] : List (View.Piece (Elt F) S1x256x768 .f32)), y ∈ pc.1.set :=
  View.cover_of_tiled [⟨rH11, p11⟩, ⟨rH10, p10⟩, ⟨rH9, p9⟩, ⟨rH8, p8⟩, ⟨rH7, p7⟩, ⟨rH6, p6⟩, ⟨rH5, p5⟩, ⟨rH4, p4⟩, ⟨rH3, p3⟩, ⟨rH2, p2⟩, ⟨rH1, p1⟩, ⟨rH0, p0⟩] S1x256x64.size (by rfl) y

end Cert.KernelIdeal.Hand

end
-- ==== Proof.KI.Body.lean ====
/-
  The body's triple: run on whole staging buffers that hold the seven input blocks, the kernel body leaves the
  inputs as they were and the output buffer at `out7` of them — the twelve heads' stores, read back as one block.
-/
import proofs.«165588_g46823733461303_cont_8to1_c_288_4_alg».proof.Proof.KI.Head

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole staging memrefs, the inputs' at read contents `x0 … x6` and the output's at anything,
    runs to the continuation holding the inputs' as they were and the output's at `out7` of the inputs' and of the
    band's bias at the grid point. -/
theorem sound_kernel (c : Dev nD) (E : Set ℕ) (i : grid0.Coords) (arg2 : Memref sig .tc .vmem S1x256x768 .f32) (harg2 : arg2.IsWhole) (arg3 : Memref sig .tc .vmem S1x256x768 .f32) (harg3 : arg3.IsWhole) (arg4 : Memref sig .tc .vmem S1x256x768 .f32) (harg4 : arg4.IsWhole) (arg5 : Memref sig .tc .vmem S1x256x768 .f32) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .f32) (harg8 : arg8.IsWhole) (arg9 : Memref sig .tc .vmem S1x256x768 .f32) (harg9 : arg9.IsWhole)
    (x0 x1 x2 x3 x4 x5 x6 : Vec F S1x256x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 (k0_pay2 (F := F) i) x0 x1 x2 x3 x4 x5 x6)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _ _ _ _ _ _ _ _ _ _ _ _)

end Cert.KernelIdeal.Hand

end
-- ==== Proof.KI.Frame.lean ====
/-
  The pipeline's proof data and the body obligation.

  Seven input windows read one array — the query block of the point, and for the keys and for the values the blocks
  two back, one back and at the point (clamped at the first block) — and one output window writes the result array's
  block of the point. After the body each input's staging buffer still holds its block, and the output's holds
  `out7` of the seven input blocks and of the band's bias at the point. The one array behind the seven input windows
  is held at seven fractions of the full share.
-/
import proofs.«165588_g46823733461303_cont_8to1_c_288_4_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The shares of the one input array -/

/-- The share each input window holds of its array: the full share of the one array behind the seven input
    windows, dealt as six halvings — window 0 keeps what is left, windows 1 to 6 take one token each. -/
def qshare : Fin 8 → PosShare TreeShare
  | ⟨0, _⟩ => Transfers.shareDrop fullShare 6
  | ⟨1, _⟩ => Transfers.shareTokN fullShare 0
  | ⟨2, _⟩ => Transfers.shareTokN fullShare 1
  | ⟨3, _⟩ => Transfers.shareTokN fullShare 2
  | ⟨4, _⟩ => Transfers.shareTokN fullShare 3
  | ⟨5, _⟩ => Transfers.shareTokN fullShare 4
  | ⟨6, _⟩ => Transfers.shareTokN fullShare 5
  | ⟨7, _⟩ => fullShare

/-! ## The proof data -/

/-- The proof data on core `c`: the arrays as the region finds them; after the body at point `t` each input's buffer
    at its block and the output's at `out7` of the input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (k0_pay2 (F := F) (grid0.coords t)) (iblk V c 0 t) (iblk V c 1 t) (iblk V c 2 t) (iblk V c 3 t) (iblk V c 4 t) (iblk V c 5 t) (iblk V c 6 t)
  Φ _ := Pipeline.ΦA spec0 c
  q := qshare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = iblk V c 6 t := by dsimp only [dat0]
theorem after7 (c : Dev nD) (t : Fin cfg0.N) :
    (dat0 V c).after 7 t = out7 (k0_pay2 (F := F) (grid0.coords t)) (iblk V c 0 t) (iblk V c 1 t) (iblk V c 2 t) (iblk V c 3 t) (iblk V c 4 t) (iblk V c 5 t) (iblk V c 6 t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d
theorem before5 (c : Dev nD) (t : Fin cfg0.N) (d) : (dat0 V c).before 5 t d = iblk V c 5 t :=
  before5_of V (dat0 V c) (A_eq V c 5) (after5 V c) t d
theorem before6 (c : Dev nD) (t : Fin cfg0.N) (d) : (dat0 V c).before 6 t d = iblk V c 6 t :=
  before6_of V (dat0 V c) (A_eq V c 6) (after6 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat0 V c).Φ t.succ = (dat0 V c).Φ t.castSucc from rfl,
    show (dat0 V c).owesAt () t.succ = (dat0 V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Shares.lean ====
/-
  One array behind seven input windows: its full share dealt to the windows, and gathered again.

  The region is handed the query-key-value array and the result array whole. The seven input windows hold the first
  at seven fractions of the full share (six halvings), at the same contents; the output window holds the second at
  the full share. Dealing is six applications of the halving law of a points-to along its share; gathering is the
  same law read backwards, the seven pieces agreeing on the contents.
-/
import proofs.«165588_g46823733461303_cont_8to1_c_288_4_alg».proof.Proof.KI.Frame
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A points-to at the full share is the seven fractions `qshare 0 … qshare 6` of it, at the same contents. -/
theorem deal7 {ℓ : Loc nD τ sig} (f : Buf (Elt F) ℓ) :
    (ℓ ↦{fullShare} f : sProp 𝕄) ⊣⊢ iprop((ℓ ↦{qshare 0} f) ∗ (ℓ ↦{qshare 1} f) ∗ (ℓ ↦{qshare 2} f) ∗ (ℓ ↦{qshare 3} f)
        ∗ (ℓ ↦{qshare 4} f) ∗ (ℓ ↦{qshare 5} f) ∗ (ℓ ↦{qshare 6} f)) := by
  have s : ∀ k, (ℓ ↦{Transfers.shareDrop fullShare k} f : sProp 𝕄)
      ⊣⊢ iprop((ℓ ↦{Transfers.shareDrop fullShare (k + 1)} f) ∗ ℓ ↦{Transfers.shareTokN fullShare k} f) :=
    fun k => pointsTo_share (PosShare.mem_left_op_right _)
  have s0 := (s 0).1; have s1 := (s 1).1; have s2 := (s 2).1; have s3 := (s 3).1; have s4 := (s 4).1; have s5 := (s 5).1
  have j0 := (s 0).2; have j1 := (s 1).2; have j2 := (s 2).2; have j3 := (s 3).2; have j4 := (s 4).2; have j5 := (s 5).2
  show (ℓ ↦{Transfers.shareDrop fullShare 0} f : sProp 𝕄)
    ⊣⊢ iprop((ℓ ↦{Transfers.shareDrop fullShare 6} f) ∗ (ℓ ↦{Transfers.shareTokN fullShare 0} f) ∗ (ℓ ↦{Transfers.shareTokN fullShare 1} f)
        ∗ (ℓ ↦{Transfers.shareTokN fullShare 2} f) ∗ (ℓ ↦{Transfers.shareTokN fullShare 3} f) ∗ (ℓ ↦{Transfers.shareTokN fullShare 4} f)
        ∗ (ℓ ↦{Transfers.shareTokN fullShare 5} f))
  constructor
  · iintro G0
    ihave G1 := s0 $$ G0; icases G1 with ⟨G1, T0⟩
    ihave G2 := s1 $$ G1; icases G2 with ⟨G2, T1⟩
    ihave G3 := s2 $$ G2; icases G3 with ⟨G3, T2⟩
    ihave G4 := s3 $$ G3; icases G4 with ⟨G4, T3⟩
    ihave G5 := s4 $$ G4; icases G5 with ⟨G5, T4⟩
    ihave G6 := s5 $$ G5; icases G6 with ⟨G6, T5⟩
    isplitl [G6]; · iexact G6
    isplitl [T0]; · iexact T0
    isplitl [T1]; · iexact T1
    isplitl [T2]; · iexact T2
    isplitl [T3]; · iexact T3
    isplitl [T4]; · iexact T4
    iexact T5
  · iintro ⟨G6, T0, T1, T2, T3, T4, T5⟩
    ihave G5 := j5 $$ [G6 T5]
    · isplitl [G6] <;> iassumption
    ihave G4 := j4 $$ [G5 T4]
    · isplitl [G5] <;> iassumption
    ihave G3 := j3 $$ [G4 T3]
    · isplitl [G4] <;> iassumption
    ihave G2 := j2 $$ [G3 T2]
    · isplitl [G3] <;> iassumption
    ihave G1 := j1 $$ [G2 T1]
    · isplitl [G2] <;> iassumption
    ihave G0 := j0 $$ [G1 T0]
    · isplitl [G1] <;> iassumption
    iexact G0

variable (V : (c : Dev nD) → (b : Ref sig .tc) → Buf (Elt F) ((c : Thread nD τ).loc b))

/-- The windows' arrays are two buffers. -/
theorem arr_image : Finset.univ.image (Pipeline.arrRef spec0) = {main_v0, main_v1} := by decide

/-- The eight windows' arrays, held at contents `Fw`: the input array seven times at its fractions, the output
    array once at the full share. -/
theorem arrays_eq (c : Dev nD) (Fw : (w : Fin cfg0.W) → Buf (Elt F) ((cfg0.win w).arr.view.loc (c : Thread nD τ))) :
    ((dat0 V c).arrays Fw : sProp 𝕄)
      = iprop((((c : Thread nD τ).loc main_v0) ↦{qshare 0} Fw 0) ∗ (((c : Thread nD τ).loc main_v0) ↦{qshare 1} Fw 1)
        ∗ (((c : Thread nD τ).loc main_v0) ↦{qshare 2} Fw 2) ∗ (((c : Thread nD τ).loc main_v0) ↦{qshare 3} Fw 3)
        ∗ (((c : Thread nD τ).loc main_v0) ↦{qshare 4} Fw 4) ∗ (((c : Thread nD τ).loc main_v0) ↦{qshare 5} Fw 5)
        ∗ (((c : Thread nD τ).loc main_v0) ↦{qshare 6} Fw 6) ∗ (((c : Thread nD τ).loc main_v1) ↦{fullShare} Fw 7)) := by
  unfold Pipeline.Dat.arrays
  rw [bigSep_W0, (arr_whole0 0).set_eq_univ, (arr_whole0 7).set_eq_univ]
  rfl

/-- The two buffers behind the windows' arrays, each whole at the full share. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1)) := by
  unfold Pipeline.arrBufs
  rw [arr_image, bigSep_insert (by decide), bigSep_singleton]
  rfl

/-- ENTRY: the unscoped buffers at `V` are the windows' arrays at their entry contents and the rest. -/
theorem arrays_of_bufs (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  rw [arrays_eq, arrBufs_eq]
  iintro ⟨H0, H1⟩
  ihave Hs := (deal7 _).1 $$ H0
  icases Hs with ⟨A0, A1, A2, A3, A4, A5, A6⟩
  isplitl [A0]; · iexact A0
  isplitl [A1]; · iexact A1
  isplitl [A2]; · iexact A2
  isplitl [A3]; · iexact A3
  isplitl [A4]; · iexact A4
  isplitl [A5]; · iexact A5
  isplitl [A6]; · iexact A6
  iexact H1

/-- An input window's array is never written: after every write-back it holds the entry contents. -/
theorem arrAt_input (c : Dev nD) (n : ℕ) :
    (dat0 V c).arrAt 0 n = V c main_v0 ∧ (dat0 V c).arrAt 1 n = V c main_v0 ∧ (dat0 V c).arrAt 2 n = V c main_v0
      ∧ (dat0 V c).arrAt 3 n = V c main_v0 ∧ (dat0 V c).arrAt 4 n = V c main_v0 ∧ (dat0 V c).arrAt 5 n = V c main_v0
      ∧ (dat0 V c).arrAt 6 n = V c main_v0 :=
  ⟨((dat0 V c).arrAt_in 0 rfl _).trans (A_eq V c 0), ((dat0 V c).arrAt_in 1 rfl _).trans (A_eq V c 1),
   ((dat0 V c).arrAt_in 2 rfl _).trans (A_eq V c 2), ((dat0 V c).arrAt_in 3 rfl _).trans (A_eq V c 3),
   ((dat0 V c).arrAt_in 4 rfl _).trans (A_eq V c 4), ((dat0 V c).arrAt_in 5 rfl _).trans (A_eq V c 5),
   ((dat0 V c).arrAt_in 6 rfl _).trans (A_eq V c 6)⟩

/-- EXIT: the windows' arrays after the last write-back and the rest are the unscoped buffers at any contents `V'`
    that hold the result array's final contents, and elsewhere what `V` holds. -/
theorem bufs_of_arrays (c : Dev nD) (V' : (b : Ref sig .tc) → Buf (Elt F) ((c : Thread nD τ).loc b))
    (h0 : V' main_v0 = V c main_v0) (h1 : V' main_v1 = (dat0 V c).arrAt 7 cfg0.N)
    (hrest : ∀ b, b ∉ Finset.univ.image (Pipeline.arrRef spec0) → V' b = V c b) :
    iprop((dat0 V c).arrays ((dat0 V c).arrAt · cfg0.N) ∗ Pipeline.unscopedRest spec0 c (V c)) ⊢ (unscopedBufs c V' : sProp 𝕄) := by
  rw [Pipeline.unscopedBufs_split₀ cfgs 0 winFacts₀0.arr_unscoped c V']
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by rw [hrest b (Finset.mem_sdiff.mp hb).2]
  rw [hr]
  refine sep_mono ?_ .rfl
  rw [arrays_eq]
  obtain ⟨e0, e1, e2, e3, e4, e5, e6⟩ := arrAt_input V c cfg0.N
  rw [arrBufs_eq, h0, h1, e0, e1, e2, e3, e4, e5, e6]
  iintro ⟨A0, A1, A2, A3, A4, A5, A6, H1⟩
  isplitr [H1]
  · iapply (deal7 _).2
    isplitl [A0]; · iexact A0
    isplitl [A1]; · iexact A1
    isplitl [A2]; · iexact A2
    isplitl [A3]; · iexact A3
    isplitl [A4]; · iexact A4
    isplitl [A5]; · iexact A5
    iexact A6
  · iexact H1

end Cert.KernelIdeal.Hand

end
-- ==== Proof.KI.Run.lean ====
/-
  The run of the whole program: a reshape of the argument, the attention region, a reshape of its result.

  Between the items every unscoped buffer is held whole at a valuation: the launch memory; after the first reshape;
  after the region, where the result array holds what the pipeline's write-backs leave and every other buffer is as
  it was; after the last reshape. Every weakly fair execution terminates, the argument array ends as launched, and
  the program's result is the last reshape of the result array's final contents.
-/
import proofs.«165588_g46823733461303_cont_8to1_c_288_4_alg».proof.Proof.KI.Shares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result array at what the write-backs leave, every other buffer as entered. -/
def W2 (c : Dev nD) : Valuation τ sig (Elt F) :=
  Function.update (W1 m ρ c) (Proc.devRef .tc main_v1) ((dat0 (V1 m ρ) c).arrAt 7 cfg0.N)
theorem W2_out (c : Dev nD) : W2 m ρ c (Proc.devRef .tc main_v1) = (dat0 (V1 m ρ) c).arrAt 7 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b
/-- After the last reshape. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- THE REGION over the thread state: entered from every unscoped buffer at `W1`, left at `W2`. The two arrays split
    out of the unscoped buffers, the input array dealt to its seven windows, and put back at the exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_bufs (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · (Pipeline.pin (pcfgs (F := F)) adm 0).N)
          ∗ Pipeline.unscopedRest (Ix := Unit) (Name := ℕ) (U := UR sig nD τ) (Lvl := ℕ) spec0 c (V1 m ρ c))
        ⊢ (unscopedBufs c (V2 m ρ c) : sProp 𝕄) :=
      bufs_of_arrays (V1 m ρ) c (V2 m ρ c) (W2_of_ne m ρ c main_v0 (by decide)) (W2_out m ρ c)
        (fun b hb => W2_of_ne m ρ c b fun e => hb (by rw [arr_image, e]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: every weakly fair execution of the program from memory `m` with zero counters terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KI.Read.lean ====
/-
  The run, read: the argument array ends as launched; the region finds the flattened argument; the program's result
  is the result array's final contents with the column axis split into heads and features.
-/
import proofs.«165588_g46823733461303_cont_8to1_c_288_4_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- No item writes the argument: neither reshape writes it, and the region writes only the result array. -/
theorem W3_arg (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- THE FRAME: every weakly fair execution terminates, nothing faulting, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_arg m ρ c)) (run_main m ρ)

/-- The region finds the argument flattened to 2 x 2048 x 2304. -/
theorem V1_in (c : Dev nD) :
    (V1 m ρ c main_v0 : S2x2048x2304.Idx → Elt F .f32)
      = shapeCast S2x2048x2304 (m ((c : Thread nD τ).loc main_arg0)) Facts₀.shapeCasts_S2x2048x3x12x64_S2x2048x2304 := by
  show StableHlo.after hostOps0 (W0 m ρ c) (Proc.devRef .tc main_v0) = _
  after_results
  rfl

/-- The program's result is the result array's final contents, its 768 columns split into 12 heads of 64 features. -/
theorem W3_res (c : Dev nD) :
    (W3 m ρ c (Proc.devRef .tc main_v2) : S2x2048x12x64.Idx → Elt F .f32)
      = shapeCast S2x2048x12x64 ((dat0 (V1 m ρ) c).arrAt 7 cfg0.N) Facts₀.shapeCasts_S2x2048x768_S2x2048x12x64 := by
  show StableHlo.after hostOps1 (W2 m ρ c) (Proc.devRef .tc main_v2) = _
  after_results
  rw [W2_out]
  rfl

/-- THE RUN with the result named: besides the frame, the program's result buffer ends at the split of the result
    array's final contents. -/
theorem run_named : θ_run defs (onTc (τ := τ) (main (F := F))) ⟨m, fun _ => 0, ρ⟩ (fun r => ∀ c : Dev nD,
      r.2.mem ((c.tc : Thread nD τ).loc main_v2)
          = shapeCast S2x2048x12x64 ((dat0 (V1 m ρ) c).arrAt 7 cfg0.N) Facts₀.shapeCasts_S2x2048x768_S2x2048x12x64
      ∧ r.2.mem ((c.tc : Thread nD τ).loc main_arg0) = m ((c.tc : Thread nD τ).loc main_arg0)) :=
  (θ_run defs _ _).mono (fun r h c => ⟨(h c _ (mem_uc main_v2 (by decide))).trans (W3_res m ρ c),
      (h c _ (mem_uc main_arg0 (by decide))).trans (W3_arg m ρ c)⟩) (run_main m ρ)

end Cert.KernelIdeal.Hand

end
-- ==== Proof.KI.Blocks.lean ====
/-
  The kernel's window blocks read at an entry.

  The grid is 2 by 8: a point is a batch and a block of 256 rows. All eight windows have blocks of 1 by 256 by 768.
  Windows 0 to 6 read the flattened input (2, 2048, 2304), whose columns are three panels of 768 — query, key,
  value: window 0 the query panel's block of the point; windows 1, 2, 3 the key panel's blocks two back, one back
  and at the point; windows 4, 5, 6 the same of the value panel; "back" is clamped at the first block. Window 7
  writes the result array's (2, 2048, 768) block of the point. The index maps are decided over the sixteen
  points; a block's entry sits at block index times block size plus the coordinate inside the block; and the output
  blocks cover the result array, the point of an index being its batch and its row divided by 256.
-/
import proofs.«165588_g46823733461303_cont_8to1_c_288_4_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The grid and the index maps -/

/-- A grid point's coordinates: the batch (below 2) and the row block (below 8). -/
theorem coords_lt (t : Fin cfg0.N) : ((grid0.coords t) 0).val < 2 ∧ ((grid0.coords t) 1).val < 8 :=
  ⟨((grid0.coords t) 0).isLt, ((grid0.coords t) 1).isLt⟩

/-- Window 0's block index at a point, decided over the sixteen points: the query panel's block of the point. -/
theorem idx0 : ∀ t : Fin cfg0.N, win0_0.index t (0 : Fin 3) = ((grid0.coords t) 0).val
    ∧ win0_0.index t (1 : Fin 3) = ((grid0.coords t) 1).val ∧ win0_0.index t (2 : Fin 3) = 0 :=
  (by decide +kernel : ∀ t : Fin grid0.N, _)

/-- Window 1's block index at a point, decided over the sixteen points: the key panel's block 2 back, clamped at the first. -/
theorem idx1 : ∀ t : Fin cfg0.N, win0_1.index t (0 : Fin 3) = ((grid0.coords t) 0).val
    ∧ win0_1.index t (1 : Fin 3) = ((grid0.coords t) 1).val - 2 ∧ win0_1.index t (2 : Fin 3) = 1 :=
  (by decide +kernel : ∀ t : Fin grid0.N, _)

/-- Window 2's block index at a point, decided over the sixteen points: the key panel's block 1 back, clamped at the first. -/
theorem idx2 : ∀ t : Fin cfg0.N, win0_2.index t (0 : Fin 3) = ((grid0.coords t) 0).val
    ∧ win0_2.index t (1 : Fin 3) = ((grid0.coords t) 1).val - 1 ∧ win0_2.index t (2 : Fin 3) = 1 :=
  (by decide +kernel : ∀ t : Fin grid0.N, _)

/-- Window 3's block index at a point, decided over the sixteen points: the key panel's block of the point. -/
theorem idx3 : ∀ t : Fin cfg0.N, win0_3.index t (0 : Fin 3) = ((grid0.coords t) 0).val
    ∧ win0_3.index t (1 : Fin 3) = ((grid0.coords t) 1).val ∧ win0_3.index t (2 : Fin 3) = 1 :=
  (by decide +kernel : ∀ t : Fin grid0.N, _)

/-- Window 4's block index at a point, decided over the sixteen points: the value panel's block 2 back, clamped at the first. -/
theorem idx4 : ∀ t : Fin cfg0.N, win0_4.index t (0 : Fin 3) = ((grid0.coords t) 0).val
    ∧ win0_4.index t (1 : Fin 3) = ((grid0.coords t) 1).val - 2 ∧ win0_4.index t (2 : Fin 3) = 2 :=
  (by decide +kernel : ∀ t : Fin grid0.N, _)

/-- Window 5's block index at a point, decided over the sixteen points: the value panel's block 1 back, clamped at the first. -/
theorem idx5 : ∀ t : Fin cfg0.N, win0_5.index t (0 : Fin 3) = ((grid0.coords t) 0).val
    ∧ win0_5.index t (1 : Fin 3) = ((grid0.coords t) 1).val - 1 ∧ win0_5.index t (2 : Fin 3) = 2 :=
  (by decide +kernel : ∀ t : Fin grid0.N, _)

/-- Window 6's block index at a point, decided over the sixteen points: the value panel's block of the point. -/
theorem idx6 : ∀ t : Fin cfg0.N, win0_6.index t (0 : Fin 3) = ((grid0.coords t) 0).val
    ∧ win0_6.index t (1 : Fin 3) = ((grid0.coords t) 1).val ∧ win0_6.index t (2 : Fin 3) = 2 :=
  (by decide +kernel : ∀ t : Fin grid0.N, _)

/-- Window 7's block index at a point, decided over the sixteen points: the result's block of the point. -/
theorem idx7 : ∀ t : Fin cfg0.N, win0_7.index t (0 : Fin 3) = ((grid0.coords t) 0).val
    ∧ win0_7.index t (1 : Fin 3) = ((grid0.coords t) 1).val ∧ win0_7.index t (2 : Fin 3) = 0 :=
  (by decide +kernel : ∀ t : Fin grid0.N, _)

/-! ## The input blocks read at an entry

A block's entry (0, r, col) sits in the array at block index times block size plus the coordinate inside the block,
axis by axis. -/

/-- Window 0's block at a point, at (0, r, col), is the flattened input at batch b, row 256 times the block row plus r,
    column 768 times 0 plus col. -/
theorem blk0_at (c : Dev nD) (t : Fin cfg0.N) (r : Fin 256) (col : Fin 768) (b : Fin 2) (row : Fin 2048) (cc : Fin 2304)
    (hb : b.val = ((grid0.coords t) 0).val) (hrow : row.val = 256 * ((grid0.coords t) 1).val + r.val)
    (hcc : cc.val = 768 * 0 + col.val) :
    iblk V c 0 t (ix3 (0 : Fin 1) r col) = (V c main_v0 : S2x2048x2304.Idx → Elt F .f32) (ix3 b row cc) := by
  show (V c main_v0 : S2x2048x2304.Idx → Elt F .f32) (((cfg0.win 0).blk t).view.emb (ix3 (0 : Fin 1) r col)) = _
  refine congrArg _ (funext fun a => Fin.ext ?_)
  obtain ⟨e0, e1, e2⟩ := idx0 t
  match a with
  | ⟨0, _⟩ => show win0_0.index t (0 : Fin 3) * 1 + 1 * (0 : Fin 1).val = b.val; rw [e0, hb]; simp
  | ⟨1, _⟩ => show win0_0.index t (1 : Fin 3) * 256 + 1 * r.val = row.val; rw [e1, hrow]; omega
  | ⟨2, _⟩ => show win0_0.index t (2 : Fin 3) * 768 + 1 * col.val = cc.val; rw [e2, hcc]; omega

/-- Window 1's block at a point, at (0, r, col), is the flattened input at batch b, row 256 times the block row plus r,
    column 768 times 1 plus col. -/
theorem blk1_at (c : Dev nD) (t : Fin cfg0.N) (r : Fin 256) (col : Fin 768) (b : Fin 2) (row : Fin 2048) (cc : Fin 2304)
    (hb : b.val = ((grid0.coords t) 0).val) (hrow : row.val = 256 * (((grid0.coords t) 1).val - 2) + r.val)
    (hcc : cc.val = 768 * 1 + col.val) :
    iblk V c 1 t (ix3 (0 : Fin 1) r col) = (V c main_v0 : S2x2048x2304.Idx → Elt F .f32) (ix3 b row cc) := by
  show (V c main_v0 : S2x2048x2304.Idx → Elt F .f32) (((cfg0.win 1).blk t).view.emb (ix3 (0 : Fin 1) r col)) = _
  refine congrArg _ (funext fun a => Fin.ext ?_)
  obtain ⟨e0, e1, e2⟩ := idx1 t
  match a with
  | ⟨0, _⟩ => show win0_1.index t (0 : Fin 3) * 1 + 1 * (0 : Fin 1).val = b.val; rw [e0, hb]; simp
  | ⟨1, _⟩ => show win0_1.index t (1 : Fin 3) * 256 + 1 * r.val = row.val; rw [e1, hrow]; omega
  | ⟨2, _⟩ => show win0_1.index t (2 : Fin 3) * 768 + 1 * col.val = cc.val; rw [e2, hcc]; omega

/-- Window 2's block at a point, at (0, r, col), is the flattened input at batch b, row 256 times the block row plus r,
    column 768 times 1 plus col. -/
theorem blk2_at (c : Dev nD) (t : Fin cfg0.N) (r : Fin 256) (col : Fin 768) (b : Fin 2) (row : Fin 2048) (cc : Fin 2304)
    (hb : b.val = ((grid0.coords t) 0).val) (hrow : row.val = 256 * (((grid0.coords t) 1).val - 1) + r.val)
    (hcc : cc.val = 768 * 1 + col.val) :
    iblk V c 2 t (ix3 (0 : Fin 1) r col) = (V c main_v0 : S2x2048x2304.Idx → Elt F .f32) (ix3 b row cc) := by
  show (V c main_v0 : S2x2048x2304.Idx → Elt F .f32) (((cfg0.win 2).blk t).view.emb (ix3 (0 : Fin 1) r col)) = _
  refine congrArg _ (funext fun a => Fin.ext ?_)
  obtain ⟨e0, e1, e2⟩ := idx2 t
  match a with
  | ⟨0, _⟩ => show win0_2.index t (0 : Fin 3) * 1 + 1 * (0 : Fin 1).val = b.val; rw [e0, hb]; simp
  | ⟨1, _⟩ => show win0_2.index t (1 : Fin 3) * 256 + 1 * r.val = row.val; rw [e1, hrow]; omega
  | ⟨2, _⟩ => show win0_2.index t (2 : Fin 3) * 768 + 1 * col.val = cc.val; rw [e2, hcc]; omega

/-- Window 3's block at a point, at (0, r, col), is the flattened input at batch b, row 256 times the block row plus r,
    column 768 times 1 plus col. -/
theorem blk3_at (c : Dev nD) (t : Fin cfg0.N) (r : Fin 256) (col : Fin 768) (b : Fin 2) (row : Fin 2048) (cc : Fin 2304)
    (hb : b.val = ((grid0.coords t) 0).val) (hrow : row.val = 256 * ((grid0.coords t) 1).val + r.val)
    (hcc : cc.val = 768 * 1 + col.val) :
    iblk V c 3 t (ix3 (0 : Fin 1) r col) = (V c main_v0 : S2x2048x2304.Idx → Elt F .f32) (ix3 b row cc) := by
  show (V c main_v0 : S2x2048x2304.Idx → Elt F .f32) (((cfg0.win 3).blk t).view.emb (ix3 (0 : Fin 1) r col)) = _
  refine congrArg _ (funext fun a => Fin.ext ?_)
  obtain ⟨e0, e1, e2⟩ := idx3 t
  match a with
  | ⟨0, _⟩ => show win0_3.index t (0 : Fin 3) * 1 + 1 * (0 : Fin 1).val = b.val; rw [e0, hb]; simp
  | ⟨1, _⟩ => show win0_3.index t (1 : Fin 3) * 256 + 1 * r.val = row.val; rw [e1, hrow]; omega
  | ⟨2, _⟩ => show win0_3.index t (2 : Fin 3) * 768 + 1 * col.val = cc.val; rw [e2, hcc]; omega

/-- Window 4's block at a point, at (0, r, col), is the flattened input at batch b, row 256 times the block row plus r,
    column 768 times 2 plus col. -/
theorem blk4_at (c : Dev nD) (t : Fin cfg0.N) (r : Fin 256) (col : Fin 768) (b : Fin 2) (row : Fin 2048) (cc : Fin 2304)
    (hb : b.val = ((grid0.coords t) 0).val) (hrow : row.val = 256 * (((grid0.coords t) 1).val - 2) + r.val)
    (hcc : cc.val = 768 * 2 + col.val) :
    iblk V c 4 t (ix3 (0 : Fin 1) r col) = (V c main_v0 : S2x2048x2304.Idx → Elt F .f32) (ix3 b row cc) := by
  show (V c main_v0 : S2x2048x2304.Idx → Elt F .f32) (((cfg0.win 4).blk t).view.emb (ix3 (0 : Fin 1) r col)) = _
  refine congrArg _ (funext fun a => Fin.ext ?_)
  obtain ⟨e0, e1, e2⟩ := idx4 t
  match a with
  | ⟨0, _⟩ => show win0_4.index t (0 : Fin 3) * 1 + 1 * (0 : Fin 1).val = b.val; rw [e0, hb]; simp
  | ⟨1, _⟩ => show win0_4.index t (1 : Fin 3) * 256 + 1 * r.val = row.val; rw [e1, hrow]; omega
  | ⟨2, _⟩ => show win0_4.index t (2 : Fin 3) * 768 + 1 * col.val = cc.val; rw [e2, hcc]; omega

/-- Window 5's block at a point, at (0, r, col), is the flattened input at batch b, row 256 times the block row plus r,
    column 768 times 2 plus col. -/
theorem blk5_at (c : Dev nD) (t : Fin cfg0.N) (r : Fin 256) (col : Fin 768) (b : Fin 2) (row : Fin 2048) (cc : Fin 2304)
    (hb : b.val = ((grid0.coords t) 0).val) (hrow : row.val = 256 * (((grid0.coords t) 1).val - 1) + r.val)
    (hcc : cc.val = 768 * 2 + col.val) :
    iblk V c 5 t (ix3 (0 : Fin 1) r col) = (V c main_v0 : S2x2048x2304.Idx → Elt F .f32) (ix3 b row cc) := by
  show (V c main_v0 : S2x2048x2304.Idx → Elt F .f32) (((cfg0.win 5).blk t).view.emb (ix3 (0 : Fin 1) r col)) = _
  refine congrArg _ (funext fun a => Fin.ext ?_)
  obtain ⟨e0, e1, e2⟩ := idx5 t
  match a with
  | ⟨0, _⟩ => show win0_5.index t (0 : Fin 3) * 1 + 1 * (0 : Fin 1).val = b.val; rw [e0, hb]; simp
  | ⟨1, _⟩ => show win0_5.index t (1 : Fin 3) * 256 + 1 * r.val = row.val; rw [e1, hrow]; omega
  | ⟨2, _⟩ => show win0_5.index t (2 : Fin 3) * 768 + 1 * col.val = cc.val; rw [e2, hcc]; omega

/-- Window 6's block at a point, at (0, r, col), is the flattened input at batch b, row 256 times the block row plus r,
    column 768 times 2 plus col. -/
theorem blk6_at (c : Dev nD) (t : Fin cfg0.N) (r : Fin 256) (col : Fin 768) (b : Fin 2) (row : Fin 2048) (cc : Fin 2304)
    (hb : b.val = ((grid0.coords t) 0).val) (hrow : row.val = 256 * ((grid0.coords t) 1).val + r.val)
    (hcc : cc.val = 768 * 2 + col.val) :
    iblk V c 6 t (ix3 (0 : Fin 1) r col) = (V c main_v0 : S2x2048x2304.Idx → Elt F .f32) (ix3 b row cc) := by
  show (V c main_v0 : S2x2048x2304.Idx → Elt F .f32) (((cfg0.win 6).blk t).view.emb (ix3 (0 : Fin 1) r col)) = _
  refine congrArg _ (funext fun a => Fin.ext ?_)
  obtain ⟨e0, e1, e2⟩ := idx6 t
  match a with
  | ⟨0, _⟩ => show win0_6.index t (0 : Fin 3) * 1 + 1 * (0 : Fin 1).val = b.val; rw [e0, hb]; simp
  | ⟨1, _⟩ => show win0_6.index t (1 : Fin 3) * 256 + 1 * r.val = row.val; rw [e1, hrow]; omega
  | ⟨2, _⟩ => show win0_6.index t (2 : Fin 3) * 768 + 1 * col.val = cc.val; rw [e2, hcc]; omega

/-! ## The output block -/

/-- The output block's entry (0, r, col) at a point sits in the result array at batch b, row 256 times the block row
    plus r, column col. -/
theorem emb7_at (t : Fin cfg0.N) (r : Fin 256) (col : Fin 768) (b : Fin 2) (row : Fin 2048)
    (hb : b.val = ((grid0.coords t) 0).val) (hrow : row.val = 256 * ((grid0.coords t) 1).val + r.val) :
    ((cfg0.win 7).blk t).view.emb (ix3 (0 : Fin 1) r col) = (ix3 b row col : S2x2048x768.Idx) := by
  funext a; apply Fin.ext
  obtain ⟨e0, e1, e2⟩ := idx7 t
  match a with
  | ⟨0, _⟩ => show win0_7.index t (0 : Fin 3) * 1 + 1 * (0 : Fin 1).val = b.val; rw [e0, hb]; simp
  | ⟨1, _⟩ => show win0_7.index t (1 : Fin 3) * 256 + 1 * r.val = row.val; rw [e1, hrow]; omega
  | ⟨2, _⟩ => show win0_7.index t (2 : Fin 3) * 768 + 1 * col.val = col.val; rw [e2]; omega

/-- An index of the result array is in a point's output block iff each coordinate is in the block's range on its
    axis. -/
theorem mem_blk7 (t : Fin cfg0.N) (i : S2x2048x768.Idx) :
    i ∈ ((cfg0.win 7).blk t).view.set ↔ ∀ a : Fin 3, win0_7.index t a * S1x256x768.size a ≤ (i a).val
      ∧ (i a).val < win0_7.index t a * S1x256x768.size a + S1x256x768.size a := by
  show i ∈ ((View.whole main_v1).slice (win0_7.rect t)).set ↔ _
  rw [View.set_slice_whole, Rect.mem_set_unit]
  exact Iff.rfl

/-- Every (batch, row block) pair is some point's output block index. -/
theorem idx_onto7 : ∀ (q0 : Fin 2) (q1 : Fin 8), ∃ t : Fin cfg0.N, win0_7.index t = ![q0.val, q1.val, 0] :=
  (by decide +kernel : ∀ (q0 : Fin 2) (q1 : Fin 8), ∃ t : Fin grid0.N, win0_7.index t = ![q0.val, q1.val, 0])

/-- The output blocks cover the result array, and the point that covers an index has the index's batch and the
    row's block as its coordinates. -/
theorem cover7_coords (i : S2x2048x768.Idx) : ∃ t : Fin cfg0.N, (cfg0.win 7).flush t = true
    ∧ i ∈ ((cfg0.win 7).blk t).view.set
    ∧ ((grid0.coords t) 0).val = (i 0).val ∧ ((grid0.coords t) 1).val = (i 1).val / 256 := by
  have hi0 : (i 0).val < 2 := (i 0).isLt
  have hi1 : (i 1).val < 2048 := (i 1).isLt
  have hi2 : (i 2).val < 768 := (i 2).isLt
  obtain ⟨t, ht⟩ := idx_onto7 ⟨(i 0).val, hi0⟩ ⟨(i 1).val / 256, by omega⟩
  have q0 : win0_7.index t (0 : Fin 3) = (i 0).val := congrFun ht 0
  have q1 : win0_7.index t (1 : Fin 3) = (i 1).val / 256 := congrFun ht 1
  have q2 : win0_7.index t (2 : Fin 3) = 0 := congrFun ht 2
  obtain ⟨e0, e1, e2⟩ := idx7 t
  refine ⟨t, flush0_7 t, ?_, by omega, by omega⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 768 ≤ (i 2).val ∧ (i 2).val < win0_7.index t (2 : Fin 3) * 768 + 768; omega

/-- The output blocks cover the result array. -/
theorem cover_out7 (i : S2x2048x768.Idx) :
    ∃ t : Fin cfg0.N, (cfg0.win 7).flush t = true ∧ i ∈ ((cfg0.win 7).blk t).view.set := by
  obtain ⟨t, hf, hm, -, -⟩ := cover7_coords i
  exact ⟨t, hf, hm⟩

end Cert.KernelIdeal.Hand

end
-- ==== Proof.Reshape.lean ====
/-
  Two reshapes read at an index.

  A reshape keeps the row-major position of every entry. The input's five axes (batch 2, position 2048, role 3,
  head 12, feature 64) flattened to (2, 2048, 2304) put role `p`, head `hd` and feature `e` at column
  768 p + 64 hd + e; and the three axes (2, 2048, 768) split into (2, 2048, 12, 64) read column 64 hd + e at
  head `hd` and feature `e`.
-/
import Idealize.ShloMosaic.Lib.Pipeline.Value
import Idealize.ShloMosaic.Lib.ValueIdx

namespace Cert.Attn.Reshape

open Idealize.ShloMosaic Idealize.ShloMosaic.ValueIdx

/-- The flattened input at (b, l, 768 p + 64 hd + e) is the input at (b, l, p, hd, e). -/
theorem flatten_at {α : Type} (x : (⟨5, ![2, 2048, 3, 12, 64]⟩ : Shape).Idx → α)
    (h : (⟨5, ![2, 2048, 3, 12, 64]⟩ : Shape).ShapeCasts ⟨3, ![2, 2048, 2304]⟩)
    (b : Fin 2) (l : Fin 2048) (p : Fin 3) (hd : Fin 12) (e : Fin 64) (col : Fin 2304)
    (hc : col.val = 768 * p.val + 64 * hd.val + e.val) :
    shapeCast ⟨3, ![2, 2048, 2304]⟩ x h (ix3 b l col) = x (ix5 b l p hd e) := by
  refine shapeCast_apply x h (ix3 b l col) (ix5 b l p hd e) ?_
  rw [Shape.rowMajor_val_five, Shape.rowMajor_val_three]
  show (((b.val * 2048 + l.val) * 3 + p.val) * 12 + hd.val) * 64 + e.val = (b.val * 2048 + l.val) * 2304 + col.val
  omega

/-- The split array at (b, l, hd, e) is the flat array at (b, l, 64 hd + e). -/
theorem split_at {α : Type} (y : (⟨3, ![2, 2048, 768]⟩ : Shape).Idx → α)
    (h : (⟨3, ![2, 2048, 768]⟩ : Shape).ShapeCasts ⟨4, ![2, 2048, 12, 64]⟩)
    (b : Fin 2) (l : Fin 2048) (hd : Fin 12) (e : Fin 64) (col : Fin 768)
    (hc : col.val = 64 * hd.val + e.val) :
    shapeCast ⟨4, ![2, 2048, 12, 64]⟩ y h (ix4 b l hd e) = y (ix3 b l col) := by
  refine shapeCast_apply y h (ix4 b l hd e) (ix3 b l col) ?_
  rw [Shape.rowMajor_val_three, Shape.rowMajor_val_four]
  show (b.val * 2048 + l.val) * 768 + col.val = ((b.val * 2048 + l.val) * 12 + hd.val) * 64 + e.val
  omega

end Cert.Attn.Reshape
-- ==== Proof.KI.BlockRows.lean ====
/-
  The seven input blocks in terms of the argument array.

  The region finds the argument (batch 2, position 2048, role 3, head 12, feature 64) flattened to (2, 2048, 2304):
  role p, head hd and feature e' sit at column 768 p + 64 hd + e'. So the entry (0, r', 64 hd + e') of an input
  window's block at a point is the argument at the point's batch, at row 256 times the window's block row plus r',
  at the window's role — 0 for the query window, 1 for the three key windows, 2 for the three value windows — and at
  head hd and feature e'.
-/
import proofs.«165588_g46823733461303_cont_8to1_c_288_4_alg».proof.Proof.KI.Blocks
import proofs.«165588_g46823733461303_cont_8to1_c_288_4_alg».proof.Proof.KI.Read
import proofs.«165588_g46823733461303_cont_8to1_c_288_4_alg».proof.Proof.Reshape

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Window 0's block at a point, at (0, r', 64 hd + e'), is the argument's query entry at the point's batch, row 256 times
    the block row plus r', head hd, feature e'. -/
theorem blk0_row (c : Dev nD) (t : Fin cfg0.N) (r' : Fin 256) (hd : Fin 12) (e' : Fin 64) (col : Fin 768) (row : Fin 2048)
    (b : Fin 2) (hb : b.val = ((grid0.coords t) 0).val) (hcol : col.val = 64 * hd.val + e'.val)
    (hrow : row.val = 256 * ((grid0.coords t) 1).val + r'.val) :
    iblk (V1 m ρ) c 0 t (ix3 (0 : Fin 1) r' col)
      = (m ((c : Thread nD τ).loc main_arg0) : S2x2048x3x12x64.Idx → Elt F .f32) (ix5 b row (0 : Fin 3) hd e') := by
  have hcl : col.val < 768 := col.isLt
  refine (blk0_at (V1 m ρ) c t r' col b row ⟨768 * 0 + col.val, by omega⟩ hb hrow rfl).trans ?_
  rw [V1_in]
  exact Cert.Attn.Reshape.flatten_at _ _ b row (0 : Fin 3) hd e' _
    (by show 768 * 0 + col.val = 768 * 0 + 64 * hd.val + e'.val; omega)

/-- Window 1's block at a point, at (0, r', 64 hd + e'), is the argument's key entry at the point's batch, row 256 times
    the block row (2 back, clamped) plus r', head hd, feature e'. -/
theorem blk1_row (c : Dev nD) (t : Fin cfg0.N) (r' : Fin 256) (hd : Fin 12) (e' : Fin 64) (col : Fin 768) (row : Fin 2048)
    (b : Fin 2) (hb : b.val = ((grid0.coords t) 0).val) (hcol : col.val = 64 * hd.val + e'.val)
    (hrow : row.val = 256 * (((grid0.coords t) 1).val - 2) + r'.val) :
    iblk (V1 m ρ) c 1 t (ix3 (0 : Fin 1) r' col)
      = (m ((c : Thread nD τ).loc main_arg0) : S2x2048x3x12x64.Idx → Elt F .f32) (ix5 b row (1 : Fin 3) hd e') := by
  have hcl : col.val < 768 := col.isLt
  refine (blk1_at (V1 m ρ) c t r' col b row ⟨768 * 1 + col.val, by omega⟩ hb hrow rfl).trans ?_
  rw [V1_in]
  exact Cert.Attn.Reshape.flatten_at _ _ b row (1 : Fin 3) hd e' _
    (by show 768 * 1 + col.val = 768 * 1 + 64 * hd.val + e'.val; omega)

/-- Window 2's block at a point, at (0, r', 64 hd + e'), is the argument's key entry at the point's batch, row 256 times
    the block row (1 back, clamped) plus r', head hd, feature e'. -/
theorem blk2_row (c : Dev nD) (t : Fin cfg0.N) (r' : Fin 256) (hd : Fin 12) (e' : Fin 64) (col : Fin 768) (row : Fin 2048)
    (b : Fin 2) (hb : b.val = ((grid0.coords t) 0).val) (hcol : col.val = 64 * hd.val + e'.val)
    (hrow : row.val = 256 * (((grid0.coords t) 1).val - 1) + r'.val) :
    iblk (V1 m ρ) c 2 t (ix3 (0 : Fin 1) r' col)
      = (m ((c : Thread nD τ).loc main_arg0) : S2x2048x3x12x64.Idx → Elt F .f32) (ix5 b row (1 : Fin 3) hd e') := by
  have hcl : col.val < 768 := col.isLt
  refine (blk2_at (V1 m ρ) c t r' col b row ⟨768 * 1 + col.val, by omega⟩ hb hrow rfl).trans ?_
  rw [V1_in]
  exact Cert.Attn.Reshape.flatten_at _ _ b row (1 : Fin 3) hd e' _
    (by show 768 * 1 + col.val = 768 * 1 + 64 * hd.val + e'.val; omega)

/-- Window 3's block at a point, at (0, r', 64 hd + e'), is the argument's key entry at the point's batch, row 256 times
    the block row plus r', head hd, feature e'. -/
theorem blk3_row (c : Dev nD) (t : Fin cfg0.N) (r' : Fin 256) (hd : Fin 12) (e' : Fin 64) (col : Fin 768) (row : Fin 2048)
    (b : Fin 2) (hb : b.val = ((grid0.coords t) 0).val) (hcol : col.val = 64 * hd.val + e'.val)
    (hrow : row.val = 256 * ((grid0.coords t) 1).val + r'.val) :
    iblk (V1 m ρ) c 3 t (ix3 (0 : Fin 1) r' col)
      = (m ((c : Thread nD τ).loc main_arg0) : S2x2048x3x12x64.Idx → Elt F .f32) (ix5 b row (1 : Fin 3) hd e') := by
  have hcl : col.val < 768 := col.isLt
  refine (blk3_at (V1 m ρ) c t r' col b row ⟨768 * 1 + col.val, by omega⟩ hb hrow rfl).trans ?_
  rw [V1_in]
  exact Cert.Attn.Reshape.flatten_at _ _ b row (1 : Fin 3) hd e' _
    (by show 768 * 1 + col.val = 768 * 1 + 64 * hd.val + e'.val; omega)

/-- Window 4's block at a point, at (0, r', 64 hd + e'), is the argument's value entry at the point's batch, row 256 times
    the block row (2 back, clamped) plus r', head hd, feature e'. -/
theorem blk4_row (c : Dev nD) (t : Fin cfg0.N) (r' : Fin 256) (hd : Fin 12) (e' : Fin 64) (col : Fin 768) (row : Fin 2048)
    (b : Fin 2) (hb : b.val = ((grid0.coords t) 0).val) (hcol : col.val = 64 * hd.val + e'.val)
    (hrow : row.val = 256 * (((grid0.coords t) 1).val - 2) + r'.val) :
    iblk (V1 m ρ) c 4 t (ix3 (0 : Fin 1) r' col)
      = (m ((c : Thread nD τ).loc main_arg0) : S2x2048x3x12x64.Idx → Elt F .f32) (ix5 b row (2 : Fin 3) hd e') := by
  have hcl : col.val < 768 := col.isLt
  refine (blk4_at (V1 m ρ) c t r' col b row ⟨768 * 2 + col.val, by omega⟩ hb hrow rfl).trans ?_
  rw [V1_in]
  exact Cert.Attn.Reshape.flatten_at _ _ b row (2 : Fin 3) hd e' _
    (by show 768 * 2 + col.val = 768 * 2 + 64 * hd.val + e'.val; omega)

/-- Window 5's block at a point, at (0, r', 64 hd + e'), is the argument's value entry at the point's batch, row 256 times
    the block row (1 back, clamped) plus r', head hd, feature e'. -/
theorem blk5_row (c : Dev nD) (t : Fin cfg0.N) (r' : Fin 256) (hd : Fin 12) (e' : Fin 64) (col : Fin 768) (row : Fin 2048)
    (b : Fin 2) (hb : b.val = ((grid0.coords t) 0).val) (hcol : col.val = 64 * hd.val + e'.val)
    (hrow : row.val = 256 * (((grid0.coords t) 1).val - 1) + r'.val) :
    iblk (V1 m ρ) c 5 t (ix3 (0 : Fin 1) r' col)
      = (m ((c : Thread nD τ).loc main_arg0) : S2x2048x3x12x64.Idx → Elt F .f32) (ix5 b row (2 : Fin 3) hd e') := by
  have hcl : col.val < 768 := col.isLt
  refine (blk5_at (V1 m ρ) c t r' col b row ⟨768 * 2 + col.val, by omega⟩ hb hrow rfl).trans ?_
  rw [V1_in]
  exact Cert.Attn.Reshape.flatten_at _ _ b row (2 : Fin 3) hd e' _
    (by show 768 * 2 + col.val = 768 * 2 + 64 * hd.val + e'.val; omega)

/-- Window 6's block at a point, at (0, r', 64 hd + e'), is the argument's value entry at the point's batch, row 256 times
    the block row plus r', head hd, feature e'. -/
theorem blk6_row (c : Dev nD) (t : Fin cfg0.N) (r' : Fin 256) (hd : Fin 12) (e' : Fin 64) (col : Fin 768) (row : Fin 2048)
    (b : Fin 2) (hb : b.val = ((grid0.coords t) 0).val) (hcol : col.val = 64 * hd.val + e'.val)
    (hrow : row.val = 256 * ((grid0.coords t) 1).val + r'.val) :
    iblk (V1 m ρ) c 6 t (ix3 (0 : Fin 1) r' col)
      = (m ((c : Thread nD τ).loc main_arg0) : S2x2048x3x12x64.Idx → Elt F .f32) (ix5 b row (2 : Fin 3) hd e') := by
  have hcl : col.val < 768 := col.isLt
  refine (blk6_at (V1 m ρ) c t r' col b row ⟨768 * 2 + col.val, by omega⟩ hb hrow rfl).trans ?_
  rw [V1_in]
  exact Cert.Attn.Reshape.flatten_at _ _ b row (2 : Fin 3) hd e' _
    (by show 768 * 2 + col.val = 768 * 2 + 64 * hd.val + e'.val; omega)

end Cert.KernelIdeal.Hand

end
-- ==== Proof.Spec.lean ====
/-
  The specification: sliding-window causal attention, read at one output entry, over the extended reals.

  The input `x` has axes (batch 2, position 2048, role 3, head 12, feature 64); role 0 is the query, role 1 the key,
  role 2 the value. For batch `b`, head `h`, query position `q` and key position `k`:
  the score is (sum over features of query times key) times 1/8; a key is allowed when `k ≤ q` and `q - k ≤ 512`;
  a disallowed key's score is -infinity. The weights are exp (score - row maximum), the denominator their sum, and
  the output entry (b, q, h, d) is the sum over keys of (weight / denominator) times the value's feature d.
-/
import Idealize.ShloMosaic.PureOps.Ideal
import Idealize.ShloMosaic.Lib.ValueIdx

noncomputable section

namespace Cert.Attn

open Idealize.ShloMosaic Idealize.ShloMosaic.ValueIdx

/-- The input's index type and the output's. -/
abbrev XIdx := (⟨5, ![2, 2048, 3, 12, 64]⟩ : Shape).Idx
abbrev OIdx := (⟨4, ![2, 2048, 12, 64]⟩ : Shape).Idx

/-- The scale 1/8 as the program spells it (the f32 word of 0.125). -/
abbrev c8 : EReal := Ideal.ofBits .f32 0x3E000000#32

/-- Key position `k` is visible from query position `q`: not in the future, at most 512 back. -/
def allowed (q k : Fin 2048) : Prop := k.val ≤ q.val ∧ q.val - k.val ≤ 512

instance (q k : Fin 2048) : Decidable (allowed q k) := by unfold allowed; infer_instance

/-- The scaled dot product of query row `q` and key row `k`. -/
def score (x : XIdx → EReal) (b : Fin 2) (h : Fin 12) (q k : Fin 2048) : EReal :=
  (∑ e : Fin 64, x (ix5 b q (0 : Fin 3) h e) * x (ix5 b k (1 : Fin 3) h e)) * c8

/-- The masked score: -infinity at a key that is not visible. -/
def masked (x : XIdx → EReal) (b : Fin 2) (h : Fin 12) (q k : Fin 2048) : EReal :=
  if allowed q k then score x b h q k else ⊥

/-- The row maximum of the masked scores. -/
def rowMax (x : XIdx → EReal) (b : Fin 2) (h : Fin 12) (q : Fin 2048) : EReal :=
  Finset.univ.sup fun k : Fin 2048 => masked x b h q k

/-- The unnormalised weight of key `k`. -/
def weight (x : XIdx → EReal) (b : Fin 2) (h : Fin 12) (q k : Fin 2048) : EReal :=
  Ideal.exp (masked x b h q k - rowMax x b h q)

/-- The normaliser. -/
def denom (x : XIdx → EReal) (b : Fin 2) (h : Fin 12) (q : Fin 2048) : EReal :=
  ∑ k : Fin 2048, weight x b h q k

/-- The attention output at (b, q, h, d). -/
def out (x : XIdx → EReal) (b : Fin 2) (q : Fin 2048) (h : Fin 12) (d : Fin 64) : EReal :=
  ∑ k : Fin 2048, Ideal.div (weight x b h q k) (denom x b h q) * x (ix5 b k (2 : Fin 3) h d)

/-- The whole output array. -/
def G (x : XIdx → EReal) : OIdx → EReal := fun i => out x (i 0) (i 1) (i 2) (i 3)

theorem G_apply (x : XIdx → EReal) (b : Fin 2) (q : Fin 2048) (h : Fin 12) (d : Fin 64) :
    G x (ix4 b q h d) = out x b q h d := rfl

end Cert.Attn

end
-- ==== Proof.KI.Cols.lean ====
/-
  The columns of one head inside a 1 x 256 x 768 block, and the result array the specification prescribes: column
  64 h + d of row l of batch b holds the attention output at (b, l, h, d).
-/
import proofs.«165588_g46823733461303_cont_8to1_c_288_4_alg».proof.Proof.KI.Head
import proofs.«165588_g46823733461303_cont_8to1_c_288_4_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Head `h`'s 64 columns of a 1 x 256 x 768 block. -/
def colRect (h : Fin 12) : Rect S1x256x768 :=
  Rect.unit (s := S1x256x768) ![0, 0, 64 * h.val] S1x256x64.size (fun a => by
    have := h.isLt
    match a with
    | ⟨0, _⟩ => show 0 + 1 ≤ 1; omega
    | ⟨1, _⟩ => show 0 + 256 ≤ 256; omega
    | ⟨2, _⟩ => show 64 * h.val + 64 ≤ 768; omega)

theorem colRect_emb (h : Fin 12) (u : Fin 1) (r : Fin 256) (e : Fin 64) (cc : Fin 768) (hcc : cc.val = 64 * h.val + e.val) :
    (colRect h).emb (ix3 u r e) = ix3 u r cc := by
  funext a; apply Fin.ext
  match a with
  | ⟨0, _⟩ => show 0 + 1 * u.val = u.val; omega
  | ⟨1, _⟩ => show 0 + 1 * r.val = r.val; omega
  | ⟨2, _⟩ => show 64 * h.val + 1 * e.val = cc.val; omega

theorem rH_eq : rH0 = colRect 0 ∧ rH1 = colRect 1 ∧ rH2 = colRect 2 ∧ rH3 = colRect 3 ∧ rH4 = colRect 4 ∧ rH5 = colRect 5
    ∧ rH6 = colRect 6 ∧ rH7 = colRect 7 ∧ rH8 = colRect 8 ∧ rH9 = colRect 9 ∧ rH10 = colRect 10 ∧ rH11 = colRect 11 :=
  ⟨rfl, rfl, rfl, rfl, rfl, rfl, rfl, rfl, rfl, rfl, rfl, rfl⟩

/-- The result array the specification prescribes: row l of batch b holds, in column 64 h + d, the attention output. -/
def Gout (x : Cert.Attn.XIdx → EReal) : S2x2048x768.Idx → EReal := fun i =>
  Cert.Attn.out x (i 0) (i 1) ⟨(i 2).val / 64, by have h2 : (i 2).val < 768 := (i 2).isLt; omega⟩ ⟨(i 2).val % 64, Nat.mod_lt _ (by norm_num)⟩

theorem Gout_apply (x : Cert.Attn.XIdx → EReal) (b : Fin 2) (l : Fin 2048) (h : Fin 12) (d : Fin 64) (col : Fin 768)
    (hcol : col.val = 64 * h.val + d.val) : Gout x (ix3 b l col) = Cert.Attn.out x b l h d := by
  have hh : (⟨col.val / 64, by have := col.isLt; omega⟩ : Fin 12) = h := Fin.ext (by show col.val / 64 = h.val; have := d.isLt; omega)
  have hd : (⟨col.val % 64, Nat.mod_lt _ (by norm_num)⟩ : Fin 64) = d := Fin.ext (by show col.val % 64 = d.val; have := d.isLt; omega)
  show Cert.Attn.out x b l ⟨col.val / 64, _⟩ ⟨col.val % 64, _⟩ = _
  rw [hh, hd]

end Cert.KernelIdeal.Hand

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«165588_g46823733461303_cont_8to1_c_288_4_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«165588_g46823733461303_cont_8to1_c_288_4_alg».proof.Proof.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.KI.HeadValue.lean ====
/-
  One head of the attention kernel, read at one entry over the extended reals, and the band's bias.

  Entry (r, d) of a head's 256 x 64 output columns: the scores of row r against the 768 stacked key rows (the query
  row times 1/8, then the feature sum, plus the bias), the row's maximum, the exponentials of the differences, their
  weighted sum of the stacked value rows' feature d, times the reciprocal of the exponentials' sum. The bias of
  query block i at (r, j) is 0 where the band column's position 256 i - 512 + j is a position of the sequence, not
  after the query row 256 i + r and at most 512 before it, and -infinity elsewhere.
-/
import proofs.«165588_g46823733461303_cont_8to1_c_288_4_alg».proof.Proof.KI.Head
import proofs.«165588_g46823733461303_cont_8to1_c_288_4_alg».proof.Proof.Spec
import proofs.«165588_g46823733461303_cont_8to1_c_288_4_alg».proof.Proof.LibDotT
import proofs.«165588_g46823733461303_cont_8to1_c_288_4_alg».proof.Proof.LibMatmulAt
import proofs.«165588_g46823733461303_cont_8to1_c_288_4_alg».proof.Proof.LibRowF32
import proofs.«165588_g46823733461303_cont_8to1_c_288_4_alg».proof.Proof.LibColumn
import Idealize.ShloMosaic.Lib.ValueLayout
import Idealize.ShloMosaic.Lib.Pipeline.Value
import Idealize.ShloMosaic.Lib.IdealHost

noncomputable section

namespace Cert.KernelIdeal.Hand

open Cert.KernelIdeal Cert.KernelIdeal.Gen
open Idealize.ShloMosaic Idealize.ShloMosaic.ValueIdx

/-- Row j of three 256-row blocks stacked: block j / 256, row j % 256. -/
def stack3 (a0 a1 a2 : Vec Ideal S1x256x64 .f32) (j : Fin 768) (e : Fin 64) : EReal :=
  if h0 : j.val < 256 then a0 (ix3 (0 : Fin 1) (⟨j.val, h0⟩ : Fin 256) e)
  else if h1 : j.val < 512 then a1 (ix3 (0 : Fin 1) (⟨j.val - 256, by omega⟩ : Fin 256) e)
  else a2 (ix3 (0 : Fin 1) (⟨j.val - 512, by have := j.isLt; omega⟩ : Fin 256) e)

/-- The word of minus infinity. -/
theorem ofBits_neg_inf : Ideal.ofBits .f32 0xFF800000#32 = (⊥ : EReal) := by
  simp [Ideal.ofBits, Ideal.ieee]

/-! ### The head's intermediate arrays, one definition each -/

/-- Three blocks, each viewed as 256 x 64, laid end to end along the rows. -/
def stackOf (a0 a1 a2 : Vec Ideal S1x256x64 .f32) : FVec Ideal S768x64 .f32 :=
  concatenate S768x64 0 [⟨S256x64, shapeCast S256x64 a0 shapeCasts_S1x256x64_S256x64⟩,
    ⟨S256x64, shapeCast S256x64 a1 shapeCasts_S1x256x64_S256x64⟩,
    ⟨S256x64, shapeCast S256x64 a2 shapeCasts_S1x256x64_S256x64⟩] concatenates_S256x64_S256x64_S256x64_S768x64_d0

/-- The scores: the query block times 1/8, against the stacked key rows, plus the bias. -/
def scoreOf (bias : FVec Ideal S256x768 .f32) (q : Vec Ideal S1x256x64 .f32) (ks : FVec Ideal S768x64 .f32) :
    FVec Ideal S256x768 .f32 :=
  addf (matmul dot_S256x64_S768x64_S256x768_1_1_0_0_n_n none
      (mulf (shapeCast S256x64 q shapeCasts_S1x256x64_S256x64) (broadcast S256x64 (Scalar.ofBits .f32 0x3E000000#32)))
      ks (constant S256x768 .f32 0x00000000#32)) bias

/-- The exponentials of the scores less their row maxima. -/
def expOf (s : FVec Ideal S256x768 .f32) : FVec Ideal S256x768 .f32 :=
  exp (subf s (broadcastTo S256x768
    (shapeCast S256x1 (multiReduction .maximumf [1] S256 s 0xFF800000#32 reduces_S256x768_S256 (.inl rfl) rfl)
      shapeCasts_S256_S256x1) broadcasts_S256x1_S256x768))

/-- The weighted sum of the stacked value rows, scaled by the reciprocal of the row sums. -/
def normOf (p : FVec Ideal S256x768 .f32) (vs : FVec Ideal S768x64 .f32) : FVec Ideal S1x256x64 .f32 :=
  shapeCast S1x256x64
    (mulf (matmul dot_S256x768_S768x64_S256x64_1_0_0_1_n_n none p vs (constant S256x64 .f32 0x00000000#32))
      (broadcastTo S256x64
        (divf (broadcast S256x1 (Scalar.ofBits .f32 0x3F800000#32))
          (shapeCast S256x1 (multiReduction .add [1] S256 p 0x00000000#32 reduces_S256x768_S256 (.inl rfl) rfl)
            shapeCasts_S256_S256x1))
        broadcasts_S256x1_S256x64))
    shapeCasts_S256x64_S1x256x64

/-- The head is these four, composed. -/
theorem headOut_eq (bias : FVec Ideal S256x768 .f32) (q km2 km1 kc vm2 vm1 vc : Vec Ideal S1x256x64 .f32) :
    headOut (F := Ideal) bias q km2 km1 kc vm2 vm1 vc
      = normOf (expOf (scoreOf bias q (stackOf km2 km1 kc))) (stackOf vm2 vm1 vc) := rfl

/-! ### Each read at an entry -/

theorem stackOf_apply (a0 a1 a2 : Vec Ideal S1x256x64 .f32) (j : Fin 768) (e : Fin 64) :
    stackOf a0 a1 a2 (ix2 j e) = stack3 a0 a1 a2 j e := by
  have hJ := j.isLt
  unfold stackOf stack3
  by_cases h0 : j.val < 256
  · rw [dif_pos h0]
    refine (concatenate_apply_piece (t := S768x64) 0 _ _ (ix2 j e) 0 ?_ S256x64 _ rfl rfl 0 rfl
      (ix2 (⟨j.val, h0⟩ : Fin 256) e) ?_ ?_).trans (shapeCast_1ab_ab_apply a0 _ _ _)
    · show (0 : Nat) < 3
      omega
    · intro b hb
      match b with
      | ⟨0, _⟩ => exact absurd rfl hb
      | ⟨1, _⟩ => rfl
    · show 0 + j.val = j.val
      omega
  · rw [dif_neg h0]
    by_cases h1 : j.val < 512
    · rw [dif_pos h1]
      refine (concatenate_apply_piece (t := S768x64) 0 _ _ (ix2 j e) 1 ?_ S256x64 _ rfl rfl 256 rfl
        (ix2 (⟨j.val - 256, by omega⟩ : Fin 256) e) ?_ ?_).trans (shapeCast_1ab_ab_apply a1 _ _ _)
      · show (1 : Nat) < 3
        omega
      · intro b hb
        match b with
        | ⟨0, _⟩ => exact absurd rfl hb
        | ⟨1, _⟩ => rfl
      · show 256 + (j.val - 256) = j.val
        omega
    · rw [dif_neg h1]
      refine (concatenate_apply_piece (t := S768x64) 0 _ _ (ix2 j e) 2 ?_ S256x64 _ rfl rfl 512 rfl
        (ix2 (⟨j.val - 512, by omega⟩ : Fin 256) e) ?_ ?_).trans (shapeCast_1ab_ab_apply a2 _ _ _)
      · show (2 : Nat) < 3
        omega
      · intro b hb
        match b with
        | ⟨0, _⟩ => exact absurd rfl hb
        | ⟨1, _⟩ => rfl
      · show 512 + (j.val - 512) = j.val
        omega

theorem scoreOf_apply (bias : FVec Ideal S256x768 .f32) (q : Vec Ideal S1x256x64 .f32) (ks : FVec Ideal S768x64 .f32)
    (r : Fin 256) (j : Fin 768) :
    scoreOf bias q ks (ix2 r j)
      = (∑ e : Fin 64, (q (ix3 (0 : Fin 1) r e) * Cert.Attn.c8) * ks (ix2 j e)) + bias (ix2 r j) := by
  unfold scoreOf
  rw [addf_apply]
  congr 1
  refine (Cert.LibDotT.matmulT_zero_apply _ none _ ks r j).trans ?_
  refine Finset.sum_congr rfl fun e _ => ?_
  rw [mulf_apply, broadcast_apply, shapeCast_1ab_ab_apply]
  rfl

theorem expOf_apply (s : FVec Ideal S256x768 .f32) (r : Fin 256) (j : Fin 768) :
    expOf s (ix2 r j)
      = Ideal.exp (s (ix2 r j) - (Finset.univ : Finset (Fin 768)).fold max (⊥ : EReal) (fun j' => s (ix2 r j'))) := by
  unfold expOf
  show Ideal.exp (s (ix2 r j) - broadcastTo S256x768 _ broadcasts_S256x1_S256x768 (ix2 r j)) = _
  rw [Cert.LibColumn.broadcastTo_a1_ab_apply, Cert.LibColumn.shapeCast_a_a1_apply]
  refine congrArg (fun m => Ideal.exp (s (ix2 r j) - m)) ?_
  refine (Cert.LibRowF32.rowMax_f32 s _ _ _ r).trans ?_
  rw [ofBits_neg_inf]

theorem normOf_apply (p : FVec Ideal S256x768 .f32) (vs : FVec Ideal S768x64 .f32) (r : Fin 256) (d : Fin 64) :
    normOf p vs (ix3 (0 : Fin 1) r d)
      = (∑ j : Fin 768, p (ix2 r j) * vs (ix2 j d)) * Ideal.div 1 (∑ j : Fin 768, p (ix2 r j)) := by
  unfold normOf
  rw [shapeCast_ab_1ab_apply, mulf_apply, Cert.LibColumn.broadcastTo_a1_ab_apply, divf_apply, broadcast_apply,
    Cert.LibColumn.shapeCast_a_a1_apply]
  congr 1
  · exact Cert.LibMatmulAt.matmul_zero_apply dot_S256x768_S768x64_S256x64_1_0_0_1_n_n rfl rfl rfl rfl rfl rfl none p vs r d
  · congr 1
    · exact Ideal.ofBits_one_f32
    · exact Cert.LibRowF32.rowSum_f32 p _ _ _ r

/-- ONE HEAD AT AN ENTRY. -/
theorem headOut_apply (bias : FVec Ideal S256x768 .f32) (q km2 km1 kc vm2 vm1 vc : Vec Ideal S1x256x64 .f32)
    (r : Fin 256) (d : Fin 64) :
    headOut (F := Ideal) bias q km2 km1 kc vm2 vm1 vc (ix3 (0 : Fin 1) r d)
      = (∑ j : Fin 768,
          Ideal.exp (((∑ e : Fin 64, (q (ix3 (0 : Fin 1) r e) * Cert.Attn.c8) * stack3 km2 km1 kc j e) + bias (ix2 r j))
            - (Finset.univ : Finset (Fin 768)).fold max (⊥ : EReal)
                (fun j' => (∑ e : Fin 64, (q (ix3 (0 : Fin 1) r e) * Cert.Attn.c8) * stack3 km2 km1 kc j' e) + bias (ix2 r j')))
            * stack3 vm2 vm1 vc j d)
        * Ideal.div 1 (∑ j : Fin 768,
          Ideal.exp (((∑ e : Fin 64, (q (ix3 (0 : Fin 1) r e) * Cert.Attn.c8) * stack3 km2 km1 kc j e) + bias (ix2 r j))
            - (Finset.univ : Finset (Fin 768)).fold max (⊥ : EReal)
                (fun j' => (∑ e : Fin 64, (q (ix3 (0 : Fin 1) r e) * Cert.Attn.c8) * stack3 km2 km1 kc j' e) + bias (ix2 r j')))) := by
  rw [headOut_eq, normOf_apply]
  simp only [expOf_apply, scoreOf_apply, stackOf_apply]

/-- THE BAND'S BIAS AT AN ENTRY, for query block `i` (the grid point's second coordinate). -/
theorem bias_apply (i : grid0.Coords) (r : Fin 256) (j : Fin 768) :
    k0_pay2 (F := Ideal) i (ix2 r j)
      = if (0 ≤ 256 * ((i 1).val : Int) + (j.val : Int) - 512
            ∧ 256 * ((i 1).val : Int) + (j.val : Int) - 512 ≤ 256 * ((i 1).val : Int) + (r.val : Int)
            ∧ 256 * ((i 1).val : Int) + (r.val : Int) - (256 * ((i 1).val : Int) + (j.val : Int) - 512) ≤ 512) then (0 : EReal) else ⊥ := by
  have hI : (i 1).val < 8 := (i 1).isLt
  have hR := r.isLt
  have hJ := j.isLt
  -- the two coordinate vectors at (r, j)
  have h1 : iota .tc S256x768 32 [0] iota_S256x768_d0_w32 (ix2 r j) = BitVec.ofNat 32 r.val :=
    iota_single_apply .tc S256x768 32 0 iota_S256x768_d0_w32 (ix2 r j)
  have h6 : iota .tc S256x768 32 [1] iota_S256x768_d1_w32 (ix2 r j) = BitVec.ofNat 32 j.val :=
    iota_single_apply .tc S256x768 32 1 iota_S256x768_d1_w32 (ix2 r j)
  -- every 32-bit word of the chain is a small integer: none wraps
  have a1 : Affine.IsInt (BitVec.ofNat 32 (i 1).val) ((i 1).val : Int) := Affine.ofNat _ ⟨rfl, by omega⟩
  have c256 : Affine.IsInt (256#32) (256 : Int) := Affine.ofNat 256 ⟨rfl, by omega⟩
  have c2 : Affine.IsInt (2#32) (2 : Int) := Affine.ofNat 2 ⟨rfl, by omega⟩
  have c0 : Affine.IsInt (0#32) (0 : Int) := Affine.ofNat 0 ⟨rfl, by omega⟩
  have c512 : Affine.IsInt (512#32) (512 : Int) := Affine.ofNat 512 ⟨rfl, by omega⟩
  have a0 := Affine.muli (e := 256 * ((i 1).val : Int)) a1 c256 ⟨by omega, by omega, by omega⟩
  have b1 : Affine.IsInt (BitVec.ofNat 32 r.val) (r.val : Int) := Affine.ofNat _ ⟨rfl, by omega⟩
  have a3 := Affine.addi (e := 256 * ((i 1).val : Int) + (r.val : Int)) a0 b1 ⟨rfl, by omega, by omega⟩
  have a4 := Affine.subi (e := ((i 1).val : Int) - 2) a1 c2 ⟨rfl, by omega, by omega⟩
  have a5 := Affine.muli (e := 256 * ((i 1).val : Int) - 512) a4 c256 ⟨by omega, by omega, by omega⟩
  have b6 : Affine.IsInt (BitVec.ofNat 32 j.val) (j.val : Int) := Affine.ofNat _ ⟨rfl, by omega⟩
  have a8 := Affine.addi (e := 256 * ((i 1).val : Int) + (j.val : Int) - 512) a5 b6 ⟨by omega, by omega, by omega⟩
  have a9 := Affine.subi (e := 256 * ((i 1).val : Int) + (r.val : Int) - (256 * ((i 1).val : Int) + (j.val : Int) - 512))
    a3 a8 ⟨rfl, by omega, by omega⟩
  unfold Affine.IsInt at a8 a9 c0 c512
  unfold k0_pay2
  dsimp only [select, andi, cmpi, addi, subi, broadcast]
  rw [h1, h6]
  show Scalar.select _ (Ideal.ofBits .f32 0x00000000#32) (Ideal.ofBits .f32 0xFF800000#32) = _
  rw [Ideal.ofBits_zero_f32, ofBits_neg_inf, Scalar.select]
  refine if_congr ?_ rfl rfl
  show IntOp.andi _ _ = 1#1 ↔ _
  rw [IntOp.andi_eq_one, IntOp.andi_eq_one, IntOp.cmpi_sge, IntOp.cmpi_sle, IntOp.cmpi_sge]
  have e8 : (IntOp.addi (Scalar.muli (Scalar.subi (BitVec.ofNat 32 (i 1).val) 2#32) 256#32) (BitVec.ofNat 32 j.val)).toInt
      = 256 * ((i 1).val : Int) + (j.val : Int) - 512 := a8
  have e9 : (IntOp.subi (IntOp.addi (Scalar.muli (BitVec.ofNat 32 (i 1).val) 256#32) (BitVec.ofNat 32 r.val))
      (IntOp.addi (Scalar.muli (Scalar.subi (BitVec.ofNat 32 (i 1).val) 2#32) 256#32) (BitVec.ofNat 32 j.val))).toInt
      = 256 * ((i 1).val : Int) + (r.val : Int) - (256 * ((i 1).val : Int) + (j.val : Int) - 512) := a9
  rw [e9, e8, c0, c512]
  omega

end Cert.KernelIdeal.Hand

end
-- ==== Proof.Band.lean ====
/-
  The band form of one attention entry equals the specification.

  A query block `i` (256 rows) sees a band of 768 key positions `256 i - 512 + j`, `j < 768`; a band column whose
  position is negative, in the future of the query row, or more than 512 back carries the bias -infinity, the
  others the bias 0. The softmax over the band, followed by the weighted sum of the band's value rows and ONE
  final scaling by the reciprocal of the normaliser, is the specification's entry: the masked columns have weight
  exp(-infinity) = 0, the visible ones are exactly the visible key positions, the scale 1/8 moves out of the
  feature sum, and the reciprocal moves inside the key sum; the last two steps use that every entry is a real number.
-/
import proofs.«165588_g46823733461303_cont_8to1_c_288_4_alg».proof.Proof.Spec

noncomputable section

namespace Cert.Attn

open Idealize.ShloMosaic Idealize.ShloMosaic.ValueIdx

/-- The key position of band column `j` at query block `i`, as an integer (negative before the sequence starts). -/
def bandPos (i : Fin 8) (j : Fin 768) : Int := 256 * (i.val : Int) + (j.val : Int) - 512

/-- Band column `j` is visible from row `r` of query block `i`. -/
def bandOk (i : Fin 8) (r : Fin 256) (j : Fin 768) : Prop :=
  0 ≤ bandPos i j ∧ bandPos i j ≤ 256 * (i.val : Int) + (r.val : Int)
    ∧ 256 * (i.val : Int) + (r.val : Int) - bandPos i j ≤ 512

instance (i : Fin 8) (r : Fin 256) (j : Fin 768) : Decidable (bandOk i r j) := by unfold bandOk; infer_instance

/-! ### Three general facts -/

/-- The scale is the real number 1/8. -/
theorem c8_eq : c8 = ((1 / 8 : ℝ) : EReal) := by
  simp [c8, Ideal.ofBits, Ideal.ieee, -EReal.coe_mul]; norm_num

/-- The coercion of a finite sum of reals is the sum of the coercions. -/
theorem coe_sum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- Folding `max` from -infinity is the supremum. -/
theorem fold_max_eq_sup {ι : Type*} (s : Finset ι) (f : ι → EReal) : s.fold max ⊥ f = s.sup f :=
  le_antisymm ((Finset.fold_max_le _).2 ⟨bot_le, fun _ hx => Finset.le_sup hx⟩)
    (Finset.sup_le fun x hx => (Finset.le_fold_max _).2 (Or.inr ⟨x, hx, le_rfl⟩))

/-! ### The geometry of the band: visible columns are the visible keys -/

section geometry

variable {i : Fin 8} {r : Fin 256} {q : Fin 2048}

/-- The key position a band column holds (meaningful on the visible columns). -/
def keyOf (i : Fin 8) (j : Fin 768) : Fin 2048 :=
  ⟨(256 * i.val + j.val - 512) % 2048, Nat.mod_lt _ (by norm_num)⟩

/-- The band column that holds a key position (meaningful on the visible keys). -/
def colOf (i : Fin 8) (k : Fin 2048) : Fin 768 :=
  ⟨(k.val + 512 - 256 * i.val) % 768, Nat.mod_lt _ (by norm_num)⟩

/-- A column at a key's position is visible exactly when the key is. -/
theorem ok_iff (hq : q.val = 256 * i.val + r.val) (j : Fin 768) (k : Fin 2048)
    (hjk : (k.val : Int) = bandPos i j) : bandOk i r j ↔ allowed q k := by
  unfold bandOk allowed
  rw [← hjk]
  omega

theorem keyOf_pos (j : Fin 768) (hj : bandOk i r j) : ((keyOf i j).val : Int) = bandPos i j := by
  have hi := i.isLt
  have hr := r.isLt
  have hjl := j.isLt
  unfold bandOk bandPos at hj
  unfold bandPos keyOf
  simp only
  omega

theorem colOf_pos (hq : q.val = 256 * i.val + r.val) (k : Fin 2048) (hk : allowed q k) :
    (k.val : Int) = bandPos i (colOf i k) := by
  have hi := i.isLt
  have hr := r.isLt
  have hkl := k.isLt
  unfold allowed at hk
  unfold bandPos colOf
  simp only
  omega

theorem keyOf_ok (hq : q.val = 256 * i.val + r.val) (j : Fin 768) (hj : bandOk i r j) : allowed q (keyOf i j) :=
  (ok_iff hq j _ (keyOf_pos j hj)).1 hj

theorem colOf_ok (hq : q.val = 256 * i.val + r.val) (k : Fin 2048) (hk : allowed q k) : bandOk i r (colOf i k) :=
  (ok_iff hq _ k (colOf_pos hq k hk)).2 hk

theorem colOf_keyOf (j : Fin 768) (hj : bandOk i r j) : colOf i (keyOf i j) = j := by
  have hi := i.isLt
  have hr := r.isLt
  have hjl := j.isLt
  unfold bandOk bandPos at hj
  unfold colOf keyOf
  apply Fin.ext
  simp only
  omega

theorem keyOf_colOf (hq : q.val = 256 * i.val + r.val) (k : Fin 2048) (hk : allowed q k) :
    keyOf i (colOf i k) = k := by
  have hi := i.isLt
  have hr := r.isLt
  have hkl := k.isLt
  unfold allowed at hk
  unfold colOf keyOf
  apply Fin.ext
  simp only
  omega

/-- A sum over the band whose terms vanish on the masked columns is the sum over all keys of terms that vanish on
    the masked keys, when the terms agree along "column `j` holds key `k`". -/
theorem sum_band_eq (hq : q.val = 256 * i.val + r.val) (f : Fin 768 → ℝ) (g : Fin 2048 → ℝ)
    (hf : ∀ j, ¬ bandOk i r j → f j = 0) (hg : ∀ k, ¬ allowed q k → g k = 0)
    (hfg : ∀ j k, bandOk i r j → (k.val : Int) = bandPos i j → f j = g k) :
    ∑ j, f j = ∑ k, g k := by
  rw [← Finset.sum_filter_of_ne (p := fun j => bandOk i r j)
        (fun j _ hne => by by_contra hn; exact hne (hf j hn)),
      ← Finset.sum_filter_of_ne (p := fun k => allowed q k)
        (fun k _ hne => by by_contra hn; exact hne (hg k hn))]
  refine Finset.sum_nbij' (keyOf i) (colOf i) ?_ ?_ ?_ ?_ ?_
  · intro j hj
    rw [Finset.mem_filter] at hj ⊢
    exact ⟨Finset.mem_univ _, keyOf_ok hq j hj.2⟩
  · intro k hk
    rw [Finset.mem_filter] at hk ⊢
    exact ⟨Finset.mem_univ _, colOf_ok hq k hk.2⟩
  · intro j hj
    exact colOf_keyOf j (Finset.mem_filter.1 hj).2
  · intro k hk
    exact keyOf_colOf hq k (Finset.mem_filter.1 hk).2
  · intro j hj
    have hj' := (Finset.mem_filter.1 hj).2
    exact hfg j _ hj' (keyOf_pos j hj')

/-- The same for suprema, the masked terms being -infinity. -/
theorem sup_band_eq (hq : q.val = 256 * i.val + r.val) (f : Fin 768 → EReal) (g : Fin 2048 → EReal)
    (hf : ∀ j, ¬ bandOk i r j → f j = ⊥) (hg : ∀ k, ¬ allowed q k → g k = ⊥)
    (hfg : ∀ j k, bandOk i r j → (k.val : Int) = bandPos i j → f j = g k) :
    Finset.univ.sup f = Finset.univ.sup g := by
  apply le_antisymm
  · refine Finset.sup_le fun j _ => ?_
    by_cases hj : bandOk i r j
    · rw [hfg j _ hj (keyOf_pos j hj)]
      exact Finset.le_sup (Finset.mem_univ _)
    · rw [hf j hj]; exact bot_le
  · refine Finset.sup_le fun k _ => ?_
    by_cases hk : allowed q k
    · rw [← hfg _ k (colOf_ok hq k hk) (colOf_pos hq k hk)]
      exact Finset.le_sup (Finset.mem_univ _)
    · rw [hg k hk]; exact bot_le

end geometry

/-! ### The softmax over the band against the softmax over all keys -/

section core

variable {i : Fin 8} {r : Fin 256} {q : Fin 2048}

/-- Band scores `bs` and masked key scores `m` that are real on the visible places, -infinity elsewhere, and agree
    where a column holds a key; band values `V` and key values `v`, real, agreeing likewise. Then the band's
    "weighted sum times one reciprocal" is the key-wise "sum of (weight / normaliser) times value". -/
theorem softmax_core (hq : q.val = 256 * i.val + r.val)
    (sr : Fin 768 → ℝ) (tr : Fin 2048 → ℝ) (Vr : Fin 768 → ℝ) (vr : Fin 2048 → ℝ)
    (hst : ∀ j k, bandOk i r j → (k.val : Int) = bandPos i j → sr j = tr k)
    (hVv : ∀ j k, bandOk i r j → (k.val : Int) = bandPos i j → Vr j = vr k)
    (bs : Fin 768 → EReal) (m : Fin 2048 → EReal) (V : Fin 768 → EReal) (v : Fin 2048 → EReal)
    (hbs : ∀ j, bs j = if bandOk i r j then (sr j : EReal) else ⊥)
    (hm : ∀ k, m k = if allowed q k then (tr k : EReal) else ⊥)
    (hV : ∀ j, V j = (Vr j : EReal)) (hv : ∀ k, v k = (vr k : EReal)) :
    (∑ j, Ideal.exp (bs j - Finset.univ.fold max ⊥ bs) * V j)
      * Ideal.div 1 (∑ j, Ideal.exp (bs j - Finset.univ.fold max ⊥ bs))
    = ∑ k, Ideal.div (Ideal.exp (m k - Finset.univ.sup m)) (∑ k', Ideal.exp (m k' - Finset.univ.sup m)) * v k := by
  -- the two maxima agree
  have hM : Finset.univ.fold max ⊥ bs = Finset.univ.sup m := by
    rw [fold_max_eq_sup]
    exact sup_band_eq hq bs m (fun j hj => by rw [hbs, if_neg hj]) (fun k hk => by rw [hm, if_neg hk])
      (fun j k hj hjk => by rw [hbs, hm, if_pos hj, if_pos ((ok_iff hq j k hjk).1 hj), hst j k hj hjk])
  rw [hM]
  -- the maximum is a real number: the diagonal key is visible, and no score is +infinity
  have hqq : allowed q q := ⟨le_rfl, by simp⟩
  obtain ⟨M, hMr⟩ : ∃ M : ℝ, Finset.univ.sup m = (M : EReal) := by
    have h1 : Finset.univ.sup m ≠ ⊥ := by
      intro h0
      have h := Finset.le_sup (f := m) (Finset.mem_univ q)
      rw [h0, hm, if_pos hqq] at h
      exact (EReal.coe_ne_bot _) (le_bot_iff.1 h)
    have h2 : Finset.univ.sup m ≠ ⊤ := by
      apply ne_of_lt
      rw [Finset.sup_lt_iff bot_lt_top]
      intro k _
      rw [hm]
      split_ifs
      · exact EReal.coe_lt_top _
      · exact bot_lt_top
    exact ⟨_, (EReal.coe_toReal h2 h1).symm⟩
  rw [hMr]
  -- the weights are real numbers, zero on the masked places
  have hw' : ∀ j, Ideal.exp (bs j - (M : EReal))
      = ((if bandOk i r j then Real.exp (sr j - M) else 0 : ℝ) : EReal) := by
    intro j
    rw [hbs]
    split_ifs
    · rw [← EReal.coe_sub, Ideal.exp_coe]
    · rw [EReal.bot_sub, Ideal.exp_bot, EReal.coe_zero]
  have hw : ∀ k, Ideal.exp (m k - (M : EReal))
      = ((if allowed q k then Real.exp (tr k - M) else 0 : ℝ) : EReal) := by
    intro k
    rw [hm]
    split_ifs
    · rw [← EReal.coe_sub, Ideal.exp_coe]
    · rw [EReal.bot_sub, Ideal.exp_bot, EReal.coe_zero]
  simp only [hw', hw, hV, hv]
  -- the two normalisers agree and are positive
  have hN : (∑ j, (if bandOk i r j then Real.exp (sr j - M) else 0 : ℝ))
      = ∑ k, (if allowed q k then Real.exp (tr k - M) else 0 : ℝ) :=
    sum_band_eq hq _ _ (fun j hj => if_neg hj) (fun k hk => if_neg hk)
      (fun j k hj hjk => by rw [if_pos hj, if_pos ((ok_iff hq j k hjk).1 hj), hst j k hj hjk])
  have hNpos : 0 < ∑ k, (if allowed q k then Real.exp (tr k - M) else 0 : ℝ) := by
    refine Finset.sum_pos' (fun k _ => ?_) ⟨q, Finset.mem_univ _, ?_⟩
    · split_ifs
      · exact (Real.exp_pos _).le
      · exact le_rfl
    · rw [if_pos hqq]; exact Real.exp_pos _
  -- the two weighted sums agree
  have hS : (∑ j, (if bandOk i r j then Real.exp (sr j - M) else 0 : ℝ) * Vr j)
      = ∑ k, (if allowed q k then Real.exp (tr k - M) else 0 : ℝ) * vr k :=
    sum_band_eq hq _ _ (fun j hj => by rw [if_neg hj, zero_mul]) (fun k hk => by rw [if_neg hk, zero_mul])
      (fun j k hj hjk => by
        rw [if_pos hj, if_pos ((ok_iff hq j k hjk).1 hj), hst j k hj hjk, hVv j k hj hjk])
  simp only [← EReal.coe_mul, ← coe_sum]
  rw [hN, hS, Ideal.div_coe hNpos.ne']
  simp only [Ideal.div_coe hNpos.ne', ← EReal.coe_mul, ← coe_sum, ← EReal.coe_one]
  rw [EReal.coe_eq_coe_iff, Finset.sum_mul]
  refine Finset.sum_congr rfl fun k _ => ?_
  ring

end core

/-- THE BAND FORM IS THE SPECIFICATION. `Kb j` and `Vb j` are the key row and the value entry the band holds in
    column `j`: real numbers everywhere, and the input's rows wherever the column's position is a position of the
    sequence. -/
theorem band_eq (x : XIdx → EReal) (hx : ∀ i, ∃ v : ℝ, x i = (v : EReal))
    (b : Fin 2) (h : Fin 12) (i : Fin 8) (r : Fin 256) (d : Fin 64)
    (q : Fin 2048) (hq : q.val = 256 * i.val + r.val)
    (Kb : Fin 768 → Fin 64 → EReal) (Vb : Fin 768 → EReal) (bias : Fin 768 → EReal)
    (hKfin : ∀ j e, ∃ v : ℝ, Kb j e = (v : EReal)) (hVfin : ∀ j, ∃ v : ℝ, Vb j = (v : EReal))
    (hK : ∀ (j : Fin 768) (k : Fin 2048), (k.val : Int) = bandPos i j → ∀ e, Kb j e = x (ix5 b k (1 : Fin 3) h e))
    (hV : ∀ (j : Fin 768) (k : Fin 2048), (k.val : Int) = bandPos i j → Vb j = x (ix5 b k (2 : Fin 3) h d))
    (hbias : ∀ j, bias j = if bandOk i r j then 0 else ⊥) :
    (∑ j : Fin 768,
        Ideal.exp (((∑ e : Fin 64, (x (ix5 b q (0 : Fin 3) h e) * c8) * Kb j e) + bias j)
          - (Finset.univ : Finset (Fin 768)).fold max (⊥ : EReal)
              (fun j' => (∑ e : Fin 64, (x (ix5 b q (0 : Fin 3) h e) * c8) * Kb j' e) + bias j')) * Vb j)
      * Ideal.div 1 (∑ j : Fin 768,
        Ideal.exp (((∑ e : Fin 64, (x (ix5 b q (0 : Fin 3) h e) * c8) * Kb j e) + bias j)
          - (Finset.univ : Finset (Fin 768)).fold max (⊥ : EReal)
              (fun j' => (∑ e : Fin 64, (x (ix5 b q (0 : Fin 3) h e) * c8) * Kb j' e) + bias j')))
      = out x b q h d := by
  -- real witnesses of every entry
  choose xr hxr using hx
  choose Kr hKr using hKfin
  choose Vr hVr using hVfin
  refine softmax_core hq
    (fun j => ∑ e : Fin 64, (xr (ix5 b q (0 : Fin 3) h e) * (1 / 8)) * Kr j e)
    (fun k => (∑ e : Fin 64, xr (ix5 b q (0 : Fin 3) h e) * xr (ix5 b k (1 : Fin 3) h e)) * (1 / 8))
    Vr (fun k => xr (ix5 b k (2 : Fin 3) h d)) ?_ ?_
    (fun j => (∑ e : Fin 64, (x (ix5 b q (0 : Fin 3) h e) * c8) * Kb j e) + bias j)
    (fun k => masked x b h q k) Vb (fun k => x (ix5 b k (2 : Fin 3) h d)) ?_ ?_ hVr (fun k => hxr _)
  · -- the scale moves out of the feature sum
    intro j k _ hjk
    have hKx : ∀ e, Kr j e = xr (ix5 b k (1 : Fin 3) h e) := fun e =>
      EReal.coe_eq_coe_iff.1 (by rw [← hKr, ← hxr, hK j k hjk e])
    rw [Finset.sum_mul]
    refine Finset.sum_congr rfl fun e _ => ?_
    rw [hKx]
    ring
  · intro j k _ hjk
    exact EReal.coe_eq_coe_iff.1 (by rw [← hVr, ← hxr, hV j k hjk])
  · -- a band score is real on a visible column, -infinity on a masked one
    intro j
    have hs : (∑ e : Fin 64, (x (ix5 b q (0 : Fin 3) h e) * c8) * Kb j e)
        = ((∑ e : Fin 64, (xr (ix5 b q (0 : Fin 3) h e) * (1 / 8)) * Kr j e : ℝ) : EReal) := by
      rw [coe_sum]
      refine Finset.sum_congr rfl fun e _ => ?_
      rw [hxr, hKr, c8_eq, ← EReal.coe_mul, ← EReal.coe_mul]
    rw [hs, hbias j]
    split_ifs
    · rw [add_zero]
    · rw [EReal.add_bot]
  · -- a masked key score likewise
    intro k
    have hs : score x b h q k
        = (((∑ e : Fin 64, xr (ix5 b q (0 : Fin 3) h e) * xr (ix5 b k (1 : Fin 3) h e)) * (1 / 8) : ℝ) : EReal) := by
      unfold score
      rw [EReal.coe_mul, coe_sum, c8_eq]
      congr 1
      refine Finset.sum_congr rfl fun e _ => ?_
      rw [hxr, hxr, EReal.coe_mul]
    unfold masked
    rw [hs]

end Cert.Attn

end
-- ==== Proof.KI.HeadSpec.lean ====
/-
  One head's entry at a query block is the specification's entry.

  The seven blocks the body reads hold the input's rows: the query block i, the key and the value blocks i - 2, i - 1
  (clamped at the first block) and i. Head h's entry (r, e) of the output block — the band softmax over the 768 stacked
  key rows with the band's bias — is the attention output at row 256 i + r, head h, feature e.
-/
import proofs.«165588_g46823733461303_cont_8to1_c_288_4_alg».proof.Proof.KI.Cols
import proofs.«165588_g46823733461303_cont_8to1_c_288_4_alg».proof.Proof.KI.HeadValue
import proofs.«165588_g46823733461303_cont_8to1_c_288_4_alg».proof.Proof.Band

noncomputable section

namespace Cert.KernelIdeal.Hand

open Cert.KernelIdeal Cert.KernelIdeal.Gen
open Idealize.ShloMosaic Idealize.ShloMosaic.ValueIdx

/-- Head `h`'s columns of a block, read at (r', e'): the block's entry in column 64 h + e'. -/
theorem ld_col (X : Vec Ideal S1x256x768 .f32) (h : Fin 12) (r' : Fin 256) (e' : Fin 64) (col : Fin 768)
    (hcol : col.val = 64 * h.val + e'.val) :
    View.ld X (colRect h) (ix3 (0 : Fin 1) r' e') = X (ix3 (0 : Fin 1) r' col) :=
  congrArg X (colRect_emb h 0 r' e' col hcol)

/-- The row of the input that row j of the three stacked blocks i - 2, i - 1 (clamped), i holds. -/
def stackRow (i : Fin 8) (j : Fin 768) : Nat :=
  if j.val < 256 then 256 * (i.val - 2) + j.val
  else if j.val < 512 then 256 * (i.val - 1) + (j.val - 256) else 256 * i.val + (j.val - 512)

/-- It is a row of the sequence. -/
theorem stackRow_lt (i : Fin 8) (j : Fin 768) : stackRow i j < 2048 := by
  have hil := i.isLt
  have hjl := j.isLt
  unfold stackRow
  split_ifs <;> omega

/-- Where the stack's row j is the band position of a key k, it holds key k. -/
theorem stackRow_of_bandPos (i : Fin 8) (j : Fin 768) (k : Fin 2048) (hjk : (k.val : Int) = Cert.Attn.bandPos i j) :
    k.val = stackRow i j := by
  have hil := i.isLt
  have hjl := j.isLt
  unfold Cert.Attn.bandPos at hjk
  unfold stackRow
  split_ifs <;> omega

/-- Three blocks that hold the rows of one role of the input at the blocks i - 2, i - 1 (clamped) and i: entry (j, e')
    of head `h`'s columns of the three, stacked, is the input's entry at the row the stack's row j holds. -/
theorem stack3_rows (x : Cert.Attn.XIdx → EReal) (b : Fin 2) (i : Fin 8) (ro : Fin 3) (h : Fin 12)
    (y2 y1 y0 : Vec Ideal S1x256x768 .f32)
    (h2 : ∀ (r' : Fin 256) (hd : Fin 12) (e' : Fin 64) (col : Fin 768) (row : Fin 2048), col.val = 64 * hd.val + e'.val →
      row.val = 256 * (i.val - 2) + r'.val → y2 (ix3 (0 : Fin 1) r' col) = x (ix5 b row ro hd e'))
    (h1 : ∀ (r' : Fin 256) (hd : Fin 12) (e' : Fin 64) (col : Fin 768) (row : Fin 2048), col.val = 64 * hd.val + e'.val →
      row.val = 256 * (i.val - 1) + r'.val → y1 (ix3 (0 : Fin 1) r' col) = x (ix5 b row ro hd e'))
    (h0 : ∀ (r' : Fin 256) (hd : Fin 12) (e' : Fin 64) (col : Fin 768) (row : Fin 2048), col.val = 64 * hd.val + e'.val →
      row.val = 256 * i.val + r'.val → y0 (ix3 (0 : Fin 1) r' col) = x (ix5 b row ro hd e'))
    (j : Fin 768) (e' : Fin 64) (k : Fin 2048) (hk : k.val = stackRow i j) :
    stack3 (View.ld y2 (colRect h)) (View.ld y1 (colRect h)) (View.ld y0 (colRect h)) j e' = x (ix5 b k ro h e') := by
  have hhl := h.isLt
  have hel := e'.isLt
  unfold stackRow at hk
  unfold stack3
  by_cases c0 : j.val < 256
  · rw [dif_pos c0]
    rw [if_pos c0] at hk
    exact (ld_col y2 h _ e' ⟨64 * h.val + e'.val, by omega⟩ rfl).trans (h2 _ h e' _ k rfl hk)
  · rw [dif_neg c0]
    rw [if_neg c0] at hk
    by_cases c1 : j.val < 512
    · rw [dif_pos c1]
      rw [if_pos c1] at hk
      exact (ld_col y1 h _ e' ⟨64 * h.val + e'.val, by omega⟩ rfl).trans (h1 _ h e' _ k rfl hk)
    · rw [dif_neg c1]
      rw [if_neg c1] at hk
      exact (ld_col y0 h _ e' ⟨64 * h.val + e'.val, by omega⟩ rfl).trans (h0 _ h e' _ k rfl hk)

/-- One head over seven blocks of the literal shape whose entries are the input's: the band softmax is the
    specification's entry. -/
theorem head_core (x : Cert.Attn.XIdx → EReal) (hx : ∀ i, ∃ v : ℝ, x i = (v : EReal))
    (g : grid0.Coords) (b : Fin 2) (i : Fin 8) (hi : i.val = (g 1).val)
    (q km2 km1 kc vm2 vm1 vc : Vec Ideal S1x256x64 .f32)
    (h : Fin 12) (r : Fin 256) (e : Fin 64) (row : Fin 2048) (hrow : row.val = 256 * i.val + r.val)
    (hQ : ∀ e' : Fin 64, q (ix3 (0 : Fin 1) r e') = x (ix5 b row (0 : Fin 3) h e'))
    (hKr : ∀ (j : Fin 768) (e' : Fin 64) (k : Fin 2048), k.val = stackRow i j →
      stack3 km2 km1 kc j e' = x (ix5 b k (1 : Fin 3) h e'))
    (hVr : ∀ (j : Fin 768) (k : Fin 2048), k.val = stackRow i j →
      stack3 vm2 vm1 vc j e = x (ix5 b k (2 : Fin 3) h e)) :
    headOut (F := Ideal) (k0_pay2 (F := Ideal) g) q km2 km1 kc vm2 vm1 vc (ix3 (0 : Fin 1) r e)
      = Cert.Attn.out x b row h e := by
  rw [headOut_apply]
  simp only [hQ]
  refine Cert.Attn.band_eq x hx b h i r e row hrow (stack3 km2 km1 kc) (fun j => stack3 vm2 vm1 vc j e)
    (fun j => k0_pay2 (F := Ideal) g (ix2 r j)) ?_ ?_ ?_ ?_ ?_
  · -- every stacked key entry is an entry of the input, hence real
    intro j e'
    rw [hKr j e' ⟨_, stackRow_lt i j⟩ rfl]
    exact hx _
  · intro j
    show ∃ v : ℝ, stack3 vm2 vm1 vc j e = (v : EReal)
    rw [hVr j ⟨_, stackRow_lt i j⟩ rfl]
    exact hx _
  · intro j k hjk e'
    exact hKr j e' k (stackRow_of_bandPos i j k hjk)
  · intro j k hjk
    exact hVr j k (stackRow_of_bandPos i j k hjk)
  · -- the bias is 0 on the visible columns, minus infinity on the others
    intro j
    show k0_pay2 (F := Ideal) g (ix2 r j) = _
    rw [bias_apply]
    refine if_congr ?_ rfl rfl
    unfold Cert.Attn.bandOk Cert.Attn.bandPos
    rw [hi]

theorem head_spec (x : Cert.Attn.XIdx → EReal) (hx : ∀ i, ∃ v : ℝ, x i = (v : EReal))
    (g : grid0.Coords) (b : Fin 2) (i : Fin 8) (hi : i.val = (g 1).val)
    (x0 x1 x2 x3 x4 x5 x6 : Vec Ideal S1x256x768 .f32)
    (hq : ∀ (r' : Fin 256) (hd : Fin 12) (e' : Fin 64) (col : Fin 768) (row : Fin 2048), col.val = 64 * hd.val + e'.val →
      row.val = 256 * i.val + r'.val → x0 (ix3 (0 : Fin 1) r' col) = x (ix5 b row (0 : Fin 3) hd e'))
    (hk2 : ∀ (r' : Fin 256) (hd : Fin 12) (e' : Fin 64) (col : Fin 768) (row : Fin 2048), col.val = 64 * hd.val + e'.val →
      row.val = 256 * (i.val - 2) + r'.val → x1 (ix3 (0 : Fin 1) r' col) = x (ix5 b row (1 : Fin 3) hd e'))
    (hk1 : ∀ (r' : Fin 256) (hd : Fin 12) (e' : Fin 64) (col : Fin 768) (row : Fin 2048), col.val = 64 * hd.val + e'.val →
      row.val = 256 * (i.val - 1) + r'.val → x2 (ix3 (0 : Fin 1) r' col) = x (ix5 b row (1 : Fin 3) hd e'))
    (hk0 : ∀ (r' : Fin 256) (hd : Fin 12) (e' : Fin 64) (col : Fin 768) (row : Fin 2048), col.val = 64 * hd.val + e'.val →
      row.val = 256 * i.val + r'.val → x3 (ix3 (0 : Fin 1) r' col) = x (ix5 b row (1 : Fin 3) hd e'))
    (hv2 : ∀ (r' : Fin 256) (hd : Fin 12) (e' : Fin 64) (col : Fin 768) (row : Fin 2048), col.val = 64 * hd.val + e'.val →
      row.val = 256 * (i.val - 2) + r'.val → x4 (ix3 (0 : Fin 1) r' col) = x (ix5 b row (2 : Fin 3) hd e'))
    (hv1 : ∀ (r' : Fin 256) (hd : Fin 12) (e' : Fin 64) (col : Fin 768) (row : Fin 2048), col.val = 64 * hd.val + e'.val →
      row.val = 256 * (i.val - 1) + r'.val → x5 (ix3 (0 : Fin 1) r' col) = x (ix5 b row (2 : Fin 3) hd e'))
    (hv0 : ∀ (r' : Fin 256) (hd : Fin 12) (e' : Fin 64) (col : Fin 768) (row : Fin 2048), col.val = 64 * hd.val + e'.val →
      row.val = 256 * i.val + r'.val → x6 (ix3 (0 : Fin 1) r' col) = x (ix5 b row (2 : Fin 3) hd e'))
    (h : Fin 12) (r : Fin 256) (e : Fin 64) (row : Fin 2048) (hrow : row.val = 256 * i.val + r.val) :
    headOut (F := Ideal) (k0_pay2 (F := Ideal) g)
        (View.ld x0 (colRect h)) (View.ld x1 (colRect h)) (View.ld x2 (colRect h)) (View.ld x3 (colRect h))
        (View.ld x4 (colRect h)) (View.ld x5 (colRect h)) (View.ld x6 (colRect h)) (ix3 (0 : Fin 1) r e)
      = Cert.Attn.out x b row h e := by
  have hhl := h.isLt
  exact head_core x hx g b i hi _ _ _ _ _ _ _ h r e row hrow
    (fun e' => (ld_col x0 h r e' ⟨64 * h.val + e'.val, by have := e'.isLt; omega⟩ rfl).trans
      (hq r h e' _ row rfl hrow))
    (fun j e' k hk => stack3_rows x b i 1 h x1 x2 x3 hk2 hk1 hk0 j e' k hk)
    (fun j k hk => stack3_rows x b i 2 h x4 x5 x6 hv2 hv1 hv0 j e k hk)

end Cert.KernelIdeal.Hand

end
-- ==== Proof.KI.Value.lean ====
/-
  The kernel's result array after the run is the specification's: column 64 h + d of row l of batch b holds the
  attention output at (b, l, h, d); split into heads and features it is the specification's output array.

  Each grid point writes back one 256-row block; inside it, head h's 64 columns are the head's stored piece, whose
  entries are the specification's by the band form of one head; the sixteen blocks cover the result array.
-/
import proofs.«165588_g46823733461303_cont_8to1_c_288_4_alg».proof.Proof.KI.Read
import proofs.«165588_g46823733461303_cont_8to1_c_288_4_alg».proof.Proof.KI.Blocks
import proofs.«165588_g46823733461303_cont_8to1_c_288_4_alg».proof.Proof.KI.BlockRows
import proofs.«165588_g46823733461303_cont_8to1_c_288_4_alg».proof.Proof.KI.HeadSpec
import proofs.«165588_g46823733461303_cont_8to1_c_288_4_alg».proof.Proof.Reshape
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The argument array, as the specification's input. -/
abbrev xin (c : Dev nD) : Cert.Attn.XIdx → EReal := m ((c : Thread nD τ).loc main_arg0)

/-- ONE HEAD'S ENTRY at a grid point is the specification's entry: the seven blocks hold the argument's rows. -/
theorem head_entry (c : Dev nD) (hx : ∀ i, ∃ v : ℝ, xin m c i = (v : EReal)) (t : Fin cfg0.N) (h : Fin 12) (r : Fin 256) (e : Fin 64)
    (b : Fin 2) (hb : b.val = ((grid0.coords t) 0).val) (row : Fin 2048) (hrow : row.val = 256 * ((grid0.coords t) 1).val + r.val) :
    headOut (F := Ideal) (k0_pay2 (F := Ideal) (grid0.coords t))
        (View.ld (iblk (V1 m ρ) c 0 t) (colRect h)) (View.ld (iblk (V1 m ρ) c 1 t) (colRect h)) (View.ld (iblk (V1 m ρ) c 2 t) (colRect h))
        (View.ld (iblk (V1 m ρ) c 3 t) (colRect h)) (View.ld (iblk (V1 m ρ) c 4 t) (colRect h)) (View.ld (iblk (V1 m ρ) c 5 t) (colRect h))
        (View.ld (iblk (V1 m ρ) c 6 t) (colRect h)) (ix3 (0 : Fin 1) r e)
      = Cert.Attn.out (xin m c) b row h e :=
  head_spec (xin m c) hx (grid0.coords t) b ⟨((grid0.coords t) 1).val, (coords_lt t).2⟩ rfl
    (iblk (V1 m ρ) c 0 t) (iblk (V1 m ρ) c 1 t) (iblk (V1 m ρ) c 2 t) (iblk (V1 m ρ) c 3 t)
    (iblk (V1 m ρ) c 4 t) (iblk (V1 m ρ) c 5 t) (iblk (V1 m ρ) c 6 t)
    (fun r' hd e' col row' hcol hrow' => blk0_row m ρ c t r' hd e' col row' b hb hcol hrow')
    (fun r' hd e' col row' hcol hrow' => blk1_row m ρ c t r' hd e' col row' b hb hcol hrow')
    (fun r' hd e' col row' hcol hrow' => blk2_row m ρ c t r' hd e' col row' b hb hcol hrow')
    (fun r' hd e' col row' hcol hrow' => blk3_row m ρ c t r' hd e' col row' b hb hcol hrow')
    (fun r' hd e' col row' hcol hrow' => blk4_row m ρ c t r' hd e' col row' b hb hcol hrow')
    (fun r' hd e' col row' hcol hrow' => blk5_row m ρ c t r' hd e' col row' b hb hcol hrow')
    (fun r' hd e' col row' hcol hrow' => blk6_row m ρ c t r' hd e' col row' b hb hcol hrow')
    h r e row hrow

/-- One stored piece agrees with the specification, read through the output block's place in the result array. -/
theorem piece_ok (c : Dev nD) (hx : ∀ i, ∃ v : ℝ, xin m c i = (v : EReal)) (t : Fin cfg0.N) (h : Fin 12) (x' : S1x256x64.Idx) :
    headOut (F := Ideal) (k0_pay2 (F := Ideal) (grid0.coords t))
        (View.ld (iblk (V1 m ρ) c 0 t) (colRect h)) (View.ld (iblk (V1 m ρ) c 1 t) (colRect h)) (View.ld (iblk (V1 m ρ) c 2 t) (colRect h))
        (View.ld (iblk (V1 m ρ) c 3 t) (colRect h)) (View.ld (iblk (V1 m ρ) c 4 t) (colRect h)) (View.ld (iblk (V1 m ρ) c 5 t) (colRect h))
        (View.ld (iblk (V1 m ρ) c 6 t) (colRect h)) x'
      = Gout (xin m c) (((cfg0.win 7).blk t).view.emb ((colRect h).emb x')) := by
  obtain ⟨u, r, e, rfl⟩ : ∃ (u : Fin 1) (r : Fin 256) (e : Fin 64), x' = ix3 u r e := ⟨x' 0, x' 1, x' 2, eq_ix3 x'⟩
  have hu : u = 0 := Subsingleton.elim _ _
  subst hu
  have hlt := coords_lt t
  have hcc : 64 * h.val + e.val < 768 := by have := h.isLt; have := e.isLt; omega
  have hrw : 256 * ((grid0.coords t) 1).val + r.val < 2048 := by have := hlt.2; have := r.isLt; omega
  rw [colRect_emb h 0 r e ⟨64 * h.val + e.val, hcc⟩ rfl,
    emb7_at t r ⟨64 * h.val + e.val, hcc⟩ ⟨((grid0.coords t) 0).val, hlt.1⟩ ⟨256 * ((grid0.coords t) 1).val + r.val, hrw⟩ rfl rfl,
    Gout_apply _ _ _ h e _ rfl]
  exact head_entry m ρ c hx t h r e _ rfl _ rfl

/-- WHAT POINT `t` WRITES BACK is block `t` of the specification's result array. -/
theorem flushed7_eq (c : Dev nD) (hx : ∀ i, ∃ v : ℝ, xin m c i = (v : EReal)) (t : Fin cfg0.N) :
    (dat0 (V1 m ρ) c).flushed 7 t = ((cfg0.win 7).blk t).view.read (Elt Ideal) (Gout (xin m c)) := by
  show (cfg0.win 7).cut (grid0.coords t) ((dat0 (V1 m ρ) c).after 7 t) = _
  rw [after7]
  funext j
  show out7 (F := Ideal) _ _ _ _ _ _ _ _ j = Gout (xin m c) (((cfg0.win 7).blk t).view.emb j)
  unfold out7
  refine View.canon_apply_of_pieces (Val := Elt Ideal) (S := S1x256x768) (e := .f32)
    (fun y => (Gout (xin m c) (((cfg0.win 7).blk t).view.emb y) : Elt Ideal .f32)) _ ?_ j (cover7 _ _ _ _ _ _ _ _ _ _ _ _ j)
  intro p hp x'
  simp only [List.mem_cons, List.mem_nil_iff, or_false] at hp
  rcases hp with rfl | rfl | rfl | rfl | rfl | rfl | rfl | rfl | rfl | rfl | rfl | rfl
  · exact piece_ok m ρ c hx t 11 x'
  · exact piece_ok m ρ c hx t 10 x'
  · exact piece_ok m ρ c hx t 9 x'
  · exact piece_ok m ρ c hx t 8 x'
  · exact piece_ok m ρ c hx t 7 x'
  · exact piece_ok m ρ c hx t 6 x'
  · exact piece_ok m ρ c hx t 5 x'
  · exact piece_ok m ρ c hx t 4 x'
  · exact piece_ok m ρ c hx t 3 x'
  · exact piece_ok m ρ c hx t 2 x'
  · exact piece_ok m ρ c hx t 1 x'
  · exact piece_ok m ρ c hx t 0 x'

/-- THE RESULT ARRAY after the run: the sixteen blocks cover it. -/
theorem final7 (c : Dev nD) (hx : ∀ i, ∃ v : ℝ, xin m c i = (v : EReal)) :
    (dat0 (V1 m ρ) c).arrAt 7 cfg0.N = Gout (xin m c) :=
  (dat0 (V1 m ρ) c).arrAt_eq_of_cover 7 (Gout (xin m c)) (fun t _ => flushed7_eq m ρ c hx t) cover_out7

/-- THE PROGRAM'S RESULT, the result array with its columns split into heads and features, is the specification's
    output array. -/
theorem result_eq (c : Dev nD) (hx : ∀ i, ∃ v : ℝ, xin m c i = (v : EReal)) :
    shapeCast S2x2048x12x64 ((dat0 (V1 m ρ) c).arrAt 7 cfg0.N) Facts₀.shapeCasts_S2x2048x768_S2x2048x12x64
      = Cert.Attn.G (xin m c) := by
  rw [final7 m ρ c hx]
  funext i
  obtain ⟨b, l, hd, d, rfl⟩ : ∃ (b : Fin 2) (l : Fin 2048) (hd : Fin 12) (d : Fin 64), i = ix4 b l hd d :=
    ⟨i 0, i 1, i 2, i 3, eq_ix4 i⟩
  have hcc : 64 * hd.val + d.val < 768 := by have := hd.isLt; have := d.isLt; omega
  rw [Cert.Attn.Reshape.split_at _ _ b l hd d ⟨64 * hd.val + d.val, hcc⟩ rfl, Gout_apply _ b l hd d _ rfl, Cert.Attn.G_apply]

end Cert.KernelIdeal.Hand

end
-- ==== Proof.RefSpec.lean ====
/-
  The reference program's result is the specification.

  The host program slices the query, key and value roles out of the input, moves the head axis outward, takes the
  batched score product, scales it by 1/8, replaces the scores of invisible keys by -infinity, takes the row
  maximum, exponentiates the differences, normalises by the row sum, takes the batched product with the values and
  moves the head axis back: entry (b, q, h, d) of the result is the specification's `out x b q h d`.

  The lemmas below read the stages bottom-up, each at an index given by literal coordinates: the three role stages
  (a slice, a reshape that drops the unit role axis, and a transpose, whose composed index arithmetic is
  division and remainder of the row-major position), the score, the visibility mask (32-bit words of positions below
  2048, so neither the comparisons nor the difference wrap), the masked score, the row maximum (a fold of `max` from
  -infinity over the key axis, which is the supremum), the weight, the normaliser, the normalised weight, and the
  final product with the values.
-/
import proofs.«165588_g46823733461303_cont_8to1_c_288_4_alg».proof.Proof.Gen.ReferenceIdeal.Read
import proofs.«165588_g46823733461303_cont_8to1_c_288_4_alg».proof.Proof.Spec

noncomputable section

namespace Cert.Attn.Ref

open Idealize.ShloMosaic Idealize.ShloMosaic.ValueIdx Cert.ReferenceIdeal Cert.ReferenceIdeal.Gen Cert.ReferenceIdeal.Read

/-- The query stage at (b, h, q, e) is the input's role-0 entry at (b, q, h, e). -/
theorem q_at (x : (⟨S2x2048x3x12x64, .f32⟩ : BufTy).Contents (Elt Ideal)) (b : Fin 2) (h : Fin 12) (q : Fin 2048) (e : Fin 64) :
    val_main_v2 (F := Ideal) x (ix4 b h q e) = x (ix5 b q (0 : Fin 3) h e) := by
  rw [val_main_v2_apply, val_main_v1_apply, val_main_v0_apply]
  refine congrArg x (funext fun a => Fin.ext ?_)
  have hb := b.isLt; have hh := h.isLt; have hq := q.isLt; have he := e.isLt
  match a with
  | ⟨0, _⟩ => show (((b.val * 2048 + q.val) * 12 + h.val) * 64 + e.val) / 1572864 = b.val; omega
  | ⟨1, _⟩ => show (((b.val * 2048 + q.val) * 12 + h.val) * 64 + e.val) / 768 % 2048 = q.val; omega
  | ⟨2, _⟩ => rfl
  | ⟨3, _⟩ => show (((b.val * 2048 + q.val) * 12 + h.val) * 64 + e.val) / 64 % 12 = h.val; omega
  | ⟨4, _⟩ => show (((b.val * 2048 + q.val) * 12 + h.val) * 64 + e.val) % 64 = e.val; omega

/-- The key stage at (b, h, k, e) is the input's role-1 entry at (b, k, h, e). -/
theorem k_at (x : (⟨S2x2048x3x12x64, .f32⟩ : BufTy).Contents (Elt Ideal)) (b : Fin 2) (h : Fin 12) (q : Fin 2048) (e : Fin 64) :
    val_main_v5 (F := Ideal) x (ix4 b h q e) = x (ix5 b q (1 : Fin 3) h e) := by
  rw [val_main_v5_apply, val_main_v4_apply, val_main_v3_apply]
  refine congrArg x (funext fun a => Fin.ext ?_)
  have hb := b.isLt; have hh := h.isLt; have hq := q.isLt; have he := e.isLt
  match a with
  | ⟨0, _⟩ => show (((b.val * 2048 + q.val) * 12 + h.val) * 64 + e.val) / 1572864 = b.val; omega
  | ⟨1, _⟩ => show (((b.val * 2048 + q.val) * 12 + h.val) * 64 + e.val) / 768 % 2048 = q.val; omega
  | ⟨2, _⟩ => rfl
  | ⟨3, _⟩ => show (((b.val * 2048 + q.val) * 12 + h.val) * 64 + e.val) / 64 % 12 = h.val; omega
  | ⟨4, _⟩ => show (((b.val * 2048 + q.val) * 12 + h.val) * 64 + e.val) % 64 = e.val; omega

/-- The value stage at (b, h, k, d) is the input's role-2 entry at (b, k, h, d). -/
theorem v_at (x : (⟨S2x2048x3x12x64, .f32⟩ : BufTy).Contents (Elt Ideal)) (b : Fin 2) (h : Fin 12) (q : Fin 2048) (e : Fin 64) :
    val_main_v8 (F := Ideal) x (ix4 b h q e) = x (ix5 b q (2 : Fin 3) h e) := by
  rw [val_main_v8_apply, val_main_v7_apply, val_main_v6_apply]
  refine congrArg x (funext fun a => Fin.ext ?_)
  have hb := b.isLt; have hh := h.isLt; have hq := q.isLt; have he := e.isLt
  match a with
  | ⟨0, _⟩ => show (((b.val * 2048 + q.val) * 12 + h.val) * 64 + e.val) / 1572864 = b.val; omega
  | ⟨1, _⟩ => show (((b.val * 2048 + q.val) * 12 + h.val) * 64 + e.val) / 768 % 2048 = q.val; omega
  | ⟨2, _⟩ => rfl
  | ⟨3, _⟩ => show (((b.val * 2048 + q.val) * 12 + h.val) * 64 + e.val) / 64 % 12 = h.val; omega
  | ⟨4, _⟩ => show (((b.val * 2048 + q.val) * 12 + h.val) * 64 + e.val) % 64 = e.val; omega

/-- The scaled score product at (b, h, q, k) is the specification's score. -/
theorem score_at (x : (⟨S2x2048x3x12x64, .f32⟩ : BufTy).Contents (Elt Ideal)) (b : Fin 2) (h : Fin 12) (q k : Fin 2048) :
    val_main_v11 (F := Ideal) x (ix4 b h q k) = Cert.Attn.score x b h q k := by
  rw [val_main_v11_apply, val_main_v9_apply, val_main_v10_apply, val_main_cst_apply]
  have el : ∀ e : Fin 64, lidx_main_v9 (ix4 b h q k) e = ix4 b h q e := fun e => funext fun a => Fin.ext (by
    match a with | ⟨0, _⟩ => rfl | ⟨1, _⟩ => rfl | ⟨2, _⟩ => rfl | ⟨3, _⟩ => rfl)
  have er : ∀ e : Fin 64, ridx_main_v9 (ix4 b h q k) e = ix4 b h k e := fun e => funext fun a => Fin.ext (by
    match a with | ⟨0, _⟩ => rfl | ⟨1, _⟩ => rfl | ⟨2, _⟩ => rfl | ⟨3, _⟩ => rfl)
  simp only [el, er, q_at, k_at, Ideal.mulf_def, Ideal.ofBits_def]
  rfl

/-- The mask word at (q, k) is set exactly when key k is visible from query q. The positions are below 2048, so the
    32-bit iota words are the positions themselves and their signed difference does not wrap. -/
theorem mask_iff (q k : Fin 2048) : val_main_v24 (F := Ideal) (ix2 q k) = 1#1 ↔ Cert.Attn.allowed q k := by
  rw [val_main_v24_apply, IntOp.andi_eq_one, val_main_v18_apply, val_main_v23_apply, IntOp.cmpi_sge, IntOp.cmpi_sle,
    val_main_v16_apply, val_main_v17_apply, val_main_v21_apply, val_main_v19_apply, val_main_v20_apply,
    val_main_v22_apply, val_main_c_apply, val_main_v13_apply, val_main_v15_apply, val_main_v12_apply, val_main_v14_apply]
  show (BitVec.ofNat 32 k.val).toInt ≤ (BitVec.ofNat 32 q.val).toInt ∧
    (BitVec.ofNat 32 q.val - BitVec.ofNat 32 k.val).toInt ≤ (512#32).toInt ↔ k.val ≤ q.val ∧ q.val - k.val ≤ 512
  have hq := q.isLt; have hk := k.isLt
  simp only [BitVec.toInt_eq_toNat_cond, BitVec.toNat_ofNat, BitVec.toNat_sub, BitVec.toNat_ofNat]
  omega

/-- The word 0xFF800000 is minus infinity. -/
theorem neg_inf_word : Ideal.ofBits .f32 0xFF800000#32 = (⊥ : EReal) := by simp [Ideal.ofBits, Ideal.ieee]

/-- The selected score at (b, h, q, k) is the specification's masked score. -/
theorem masked_at (x : (⟨S2x2048x3x12x64, .f32⟩ : BufTy).Contents (Elt Ideal)) (b : Fin 2) (h : Fin 12) (q k : Fin 2048) :
    val_main_v26 (F := Ideal) x (ix4 b h q k) = Cert.Attn.masked x b h q k := by
  rw [val_main_v26_apply, val_main_call0_v1_apply, val_main_v25_apply, val_main_call0_v2_apply,
    val_main_call0_v0_apply, val_main_cst_0_apply, score_at]
  have ei : idx_main_v25 (idx_main_call0_v1 (ix4 b h q k)) = ix2 q k := funext fun a => Fin.ext (by
    match a with | ⟨0, _⟩ => rfl | ⟨1, _⟩ => rfl)
  rw [ei]
  unfold Cert.Attn.masked
  by_cases ha : Cert.Attn.allowed q k
  · rw [(mask_iff q k).2 ha, if_pos ha]; exact select_one _ _
  · rw [eq_zero_of_ne_one (fun hm => ha ((mask_iff q k).1 hm)), if_neg ha, select_zero, Ideal.ofBits_def, neg_inf_word]

/-- A maximum-reduction from minus infinity along the last axis is the supremum over that axis's coordinates. -/
theorem reduce_max_last (y : (⟨S2x12x2048x2048, .f32⟩ : BufTy).Contents (Elt Ideal)) (b : Fin 2) (h : Fin 12) (q : Fin 2048) :
    Host.reduce (FloatOps.maximumf (F := Ideal) (φ := .f32)) y (val_main_cst_1 (F := Ideal))
        reducesTo_S2x12x2048x2048_S2x12x2048_d3 h_S_ (ix3 b h q)
      = Finset.univ.sup fun k : Fin 2048 => y (ix4 b h q k) := by
  rw [Host.reduce_eq_fold_single (FloatOps.maximumf (F := Ideal) (φ := .f32)) y _
    reducesTo_S2x12x2048x2048_S2x12x2048_d3 (by decide) h_S_]
  rw [val_main_cst_1_apply, Ideal.ofBits_def, neg_inf_word]
  exact Finset.fold_congr (fun k _ => congrArg y (funext fun a => Fin.ext (by
    match a with | ⟨0, _⟩ => rfl | ⟨1, _⟩ => rfl | ⟨2, _⟩ => rfl | ⟨3, _⟩ => rfl)))

/-- The row maximum stage at (b, h, q) is the specification's row maximum. -/
theorem rowMax_at (x : (⟨S2x2048x3x12x64, .f32⟩ : BufTy).Contents (Elt Ideal)) (b : Fin 2) (h : Fin 12) (q : Fin 2048) :
    val_main_v29 (F := Ideal) x (ix3 b h q) = Cert.Attn.rowMax x b h q := by
  rw [val_main_v29_apply, val_main_v28_apply, val_main_cst_2_apply, Ideal.maximumf_def, Ideal.ofBits_def, neg_inf_word]
  have e27 : val_main_v27 (F := Ideal) x (ix3 b h q)
      = Finset.univ.sup fun k : Fin 2048 => val_main_v26 (F := Ideal) x (ix4 b h q k) := by
    unfold val_main_v27
    exact reduce_max_last (val_main_v26 (F := Ideal) x) b h q
  rw [e27, max_eq_right bot_le]
  unfold Cert.Attn.rowMax
  exact Finset.sup_congr rfl (fun k _ => masked_at x b h q k)

/-- The exponentiated difference at (b, h, q, k) is the specification's weight. -/
theorem weight_at (x : (⟨S2x2048x3x12x64, .f32⟩ : BufTy).Contents (Elt Ideal)) (b : Fin 2) (h : Fin 12) (q k : Fin 2048) :
    val_main_v33 (F := Ideal) x (ix4 b h q k) = Cert.Attn.weight x b h q k := by
  rw [val_main_v33_apply, val_main_v32_apply, val_main_v31_apply, val_main_v30_apply, masked_at]
  have ei : idx_main_v30 (idx_main_v31 (ix4 b h q k)) = ix3 b h q := funext fun a => Fin.ext (by
    match a with | ⟨0, _⟩ => rfl | ⟨1, _⟩ => rfl | ⟨2, _⟩ => rfl)
  rw [ei, rowMax_at, Ideal.hostUnary_exp_def, Ideal.subf_def]
  rfl

/-- The row sum at (b, h, q) is the specification's normaliser. -/
theorem denom_at (x : (⟨S2x2048x3x12x64, .f32⟩ : BufTy).Contents (Elt Ideal)) (b : Fin 2) (h : Fin 12) (q : Fin 2048) :
    val_main_v34 (F := Ideal) x (ix3 b h q) = Cert.Attn.denom x b h q := by
  rw [val_main_v34_apply, val_main_cst_3_apply, Ideal.ofBits_def, Ideal.ofBits_zero_f32, zero_add]
  unfold Cert.Attn.denom
  refine Finset.sum_congr rfl fun k _ => ?_
  have ei : idx_main_v34 (ix3 b h q) k = ix4 b h q k := funext fun a => Fin.ext (by
    match a with | ⟨0, _⟩ => rfl | ⟨1, _⟩ => rfl | ⟨2, _⟩ => rfl | ⟨3, _⟩ => rfl)
  rw [ei, weight_at]

/-- The normalised weight at (b, h, q, k). -/
theorem prob_at (x : (⟨S2x2048x3x12x64, .f32⟩ : BufTy).Contents (Elt Ideal)) (b : Fin 2) (h : Fin 12) (q k : Fin 2048) :
    val_main_v37 (F := Ideal) x (ix4 b h q k)
      = Ideal.div (Cert.Attn.weight x b h q k) (Cert.Attn.denom x b h q) := by
  rw [val_main_v37_apply, val_main_v36_apply, val_main_v35_apply, weight_at]
  have ei : idx_main_v35 (idx_main_v36 (ix4 b h q k)) = ix3 b h q := funext fun a => Fin.ext (by
    match a with | ⟨0, _⟩ => rfl | ⟨1, _⟩ => rfl | ⟨2, _⟩ => rfl)
  rw [ei, denom_at, Ideal.hostDivf_def]

/-- The reference's result array, as a function of the input array, is the specification's `G`. -/
theorem ref_eq_G (x0 : (⟨S2x2048x3x12x64, .f32⟩ : BufTy).Contents (Elt Ideal)) :
    val_main_v39 (F := Ideal) x0 = Cert.Attn.G x0 := by
  funext i
  obtain ⟨b, q, h, d, rfl⟩ : ∃ (b : Fin 2) (q : Fin 2048) (h : Fin 12) (d : Fin 64), i = ix4 b q h d :=
    ⟨i 0, i 1, i 2, i 3, eq_ix4 i⟩
  rw [val_main_v39_apply, Cert.Attn.G_apply]
  have e0 : idx_main_v39 (ix4 b q h d) = ix4 b h q d := funext fun a => Fin.ext (by
    match a with | ⟨0, _⟩ => rfl | ⟨1, _⟩ => rfl | ⟨2, _⟩ => rfl | ⟨3, _⟩ => rfl)
  rw [e0, val_main_v38_apply]
  unfold Cert.Attn.out
  refine Finset.sum_congr rfl fun k _ => ?_
  have el : lidx_main_v38 (ix4 b h q d) k = ix4 b h q k := funext fun a => Fin.ext (by
    match a with | ⟨0, _⟩ => rfl | ⟨1, _⟩ => rfl | ⟨2, _⟩ => rfl | ⟨3, _⟩ => rfl)
  have er : ridx_main_v38 (ix4 b h q d) k = ix4 b h k d := funext fun a => Fin.ext (by
    match a with | ⟨0, _⟩ => rfl | ⟨1, _⟩ => rfl | ⟨2, _⟩ => rfl | ⟨3, _⟩ => rfl)
  rw [el, er, prob_at, v_at]

end Cert.Attn.Ref

end
-- ==== Proof.Finite.lean ====
/-
  Finiteness from the precondition.

  The precondition says that every entry of the input has absolute value below plus infinity: the conjunction
  over all entries of the comparison |x| < +infinity is one. An extended real whose absolute value is below plus
  infinity is neither infinity, so it is a real number.
-/
import proofs.«165588_g46823733461303_cont_8to1_c_288_4_alg».proof.Defs
import Idealize.ShloMosaic.Lib.ReduceAll
import Idealize.ShloMosaic.Lib.Pipeline.Value
import Idealize.ShloMosaic.Lib.ValueIdx

noncomputable section

namespace Cert.Attn.Fin

open Idealize.ShloMosaic Idealize.ShloMosaic.ValueIdx

/-- The word 0x7F800000 is plus infinity. -/
theorem pos_inf_word : Ideal.ofBits .f32 0x7F800000#32 = (⊤ : EReal) := by simp [Ideal.ofBits, Ideal.ieee]

/-- An extended real whose absolute value is below plus infinity is a real number. -/
theorem real_of_abs_lt_top (a : EReal) (h : max a (-a) < ⊤) : ∃ v : ℝ, a = (v : EReal) := by
  have h1 : a ≠ ⊤ := fun e => by rw [e] at h; exact absurd h (by simp)
  have h2 : a ≠ ⊥ := fun e => by rw [e] at h; exact absurd h (by simp)
  exact ⟨a.toReal, (EReal.coe_toReal h1 h2).symm⟩

/-- Under the precondition every entry of the input is a real number. -/
theorem finite_of_pre [hP : Cert.Pre_finite_inputs.Facts]
    (x : (⟨Cert.KernelIdeal.S2x2048x3x12x64, .f32⟩ : BufTy).Contents (Elt Ideal))
    (h : Cert.Pre_finite_inputs.fn (F := Ideal) x = fun _ => 1#1) : ∀ i, ∃ v : ℝ, x i = (v : EReal) := by
  intro i
  have h0 := congrFun h ValueIdx.ix0
  unfold Cert.Pre_finite_inputs.fn at h0
  dsimp only at h0
  haveI : Subsingleton Cert.Pre_finite_inputs.S_.Idx := ⟨fun a b => funext fun d => d.elim0⟩
  have hi := Host.reduce_andi_all _ _ _ _ _ h0 i
  rw [cmpf_apply] at hi
  have hb : broadcastInDim Cert.Pre_finite_inputs.S2x2048x3x12x64 ![] hP.bcast_S_S2x2048x3x12x64
      (constant (F := Ideal) Cert.Pre_finite_inputs.S_ .f32 0x7F800000#32) i = (⊤ : EReal) := by
    rw [broadcastInDim_apply _ hP.bcast_S_S2x2048x3x12x64 _ i (fun a => a.elim0) (fun a => a.elim0)]
    exact pos_inf_word
  rw [hb] at hi
  refine real_of_abs_lt_top (x i) ?_
  have hc : BitVec.ofBool (decide (max (x i) (-(x i)) < ⊤)) = 1#1 := hi
  by_contra hn
  rw [decide_eq_false hn] at hc
  exact absurd hc (by decide)

end Cert.Attn.Fin

end
-- ==== Proof.Claims.lean ====
/-
  The five claims.

  The frames of the two kernel programs are the hand-proved runs; the reference's frame is its generated run with
  the result dropped; nothing was rewritten in idealizing the kernel; and at the extended reals both programs end
  with the specification's output array of the argument — the kernel by the band form of attention, block by
  block, under the precondition that every input entry is a real number, the reference by reading its operations
  one at a time.
-/
import proofs.«165588_g46823733461303_cont_8to1_c_288_4_alg».proof.Defs
import proofs.«165588_g46823733461303_cont_8to1_c_288_4_alg».proof.Proof.Gen.Kernel
import proofs.«165588_g46823733461303_cont_8to1_c_288_4_alg».proof.Proof.Gen.KernelIdeal
import proofs.«165588_g46823733461303_cont_8to1_c_288_4_alg».proof.Proof.Gen.ReferenceIdeal
import proofs.«165588_g46823733461303_cont_8to1_c_288_4_alg».proof.Proof.Gen.Pre_finite_inputs
import proofs.«165588_g46823733461303_cont_8to1_c_288_4_alg».proof.Proof.Gen.ReferenceIdeal.Run
import proofs.«165588_g46823733461303_cont_8to1_c_288_4_alg».proof.Proof.Gen.ReferenceIdeal.Read
import proofs.«165588_g46823733461303_cont_8to1_c_288_4_alg».proof.Proof.K.Read
import proofs.«165588_g46823733461303_cont_8to1_c_288_4_alg».proof.Proof.KI.Value
import proofs.«165588_g46823733461303_cont_8to1_c_288_4_alg».proof.Proof.RefSpec
import proofs.«165588_g46823733461303_cont_8to1_c_288_4_alg».proof.Proof.Finite

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's output array of the argument. -/
theorem algebraic : Cert.algebraic_KernelIdeal_ReferenceIdeal := by
  intro m ρ m' ρ' hpre hagree
  have hx : ∀ c i, ∃ v : ℝ, Cert.KernelIdeal.Hand.xin m c i = (v : EReal) :=
    fun c => Cert.Attn.Fin.finite_of_pre _ (hpre c)
  refine ⟨fun c => Cert.Attn.G (Cert.KernelIdeal.Hand.xin m c), ?_, ?_⟩
  · exact (θ_run (Cert.KernelIdeal.defs (F := Ideal)) _ _).mono
      (fun r h c => ⟨(h c).1.trans (Cert.KernelIdeal.Hand.result_eq m ρ c (hx c)), (h c).2⟩)
      (Cert.KernelIdeal.Hand.run_named m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v39_eq, Cert.Attn.Ref.ref_eq_G, hagree c]

end Cert.Proof.Claims

end
-- ==== Proof.lean ====
/-
  Sliding-window causal attention: a banded Pallas kernel over the flattened query-key-value array against the
  plain masked-softmax reference, equal entry by entry over the extended reals under finite inputs.

  The kernel visits sixteen grid points (two batches, eight query blocks of 256 rows). At a point it reads the query
  block, and for the keys and for the values the three blocks of the band (two back, one back, current; clamped at
  the start and masked by an additive bias of minus infinity), and for each of the twelve heads writes the head's 64
  columns of the output block: softmax over the band's 768 columns, one scaling by the reciprocal of the row sum.
  The reference masks all 2048 keys, subtracts the row maximum, exponentiates, divides by the row sum and multiplies
  by the values. Both are the specification's function (Proof/Spec.lean): masked columns weigh exp(-infinity) = 0, the
  visible columns of the band are the visible keys (Proof/Band.lean), the scale 1/8 moves through the feature sum and
  the reciprocal through the key sum because every entry is a real number (Proof/Finite.lean).
  The seven input windows read ONE array: the region holds it at seven fractions of the full share and gathers them at
  the exit (Proof/KI/Shares.lean, Proof/K/Shares.lean); the program is a reshape, the region, a reshape
  (Proof/KI/Run.lean).
-/
import proofs.«165588_g46823733461303_cont_8to1_c_288_4_alg».proof.Defs
import proofs.«165588_g46823733461303_cont_8to1_c_288_4_alg».proof.Proof.Gen.Kernel
import proofs.«165588_g46823733461303_cont_8to1_c_288_4_alg».proof.Proof.Gen.Kernel.Skeleton
import proofs.«165588_g46823733461303_cont_8to1_c_288_4_alg».proof.Proof.Gen.Kernel.Launch
import proofs.«165588_g46823733461303_cont_8to1_c_288_4_alg».proof.Proof.Gen.Kernel.Points
import proofs.«165588_g46823733461303_cont_8to1_c_288_4_alg».proof.Proof.Gen.KernelIdeal
import proofs.«165588_g46823733461303_cont_8to1_c_288_4_alg».proof.Proof.Gen.KernelIdeal.Skeleton
import proofs.«165588_g46823733461303_cont_8to1_c_288_4_alg».proof.Proof.Gen.KernelIdeal.Launch
import proofs.«165588_g46823733461303_cont_8to1_c_288_4_alg».proof.Proof.Gen.KernelIdeal.Points
import proofs.«165588_g46823733461303_cont_8to1_c_288_4_alg».proof.Proof.Gen.ReferenceIdeal
import proofs.«165588_g46823733461303_cont_8to1_c_288_4_alg».proof.Proof.Gen.Pre_finite_inputs
import proofs.«165588_g46823733461303_cont_8to1_c_288_4_alg».proof.Proof.Gen.ReferenceIdeal.Run
import proofs.«165588_g46823733461303_cont_8to1_c_288_4_alg».proof.Proof.Gen.ReferenceIdeal.Read
import proofs.«165588_g46823733461303_cont_8to1_c_288_4_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
